-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S256x1024 : Shape := ⟨2, ![256, 1024]⟩
abbrev S256 : Shape := ⟨1, ![256]⟩
abbrev S1x1 : Shape := ⟨2, ![1, 1]⟩
abbrev S1 : Shape := ⟨1, ![1]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x2048x1024 .f32) (main_arg1 : FVec F S256x1024 .f32) (main_arg2 : FVec F S256 .f32) (main_arg3 : FVec F S1x1 .f32) (main_arg4 : FVec F S1 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_arg4 main_v13 main_v16
-- ==== Kernel.lean ====
abbrev S4x2048x1024 : Shape := ⟨3, ![4, 2048, 1024]⟩
abbrev S256x1024 : Shape := ⟨2, ![256, 1024]⟩
abbrev S256 : Shape := ⟨1, ![256]⟩
abbrev S1x1 : Shape := ⟨2, ![1, 1]⟩
abbrev S1 : Shape := ⟨1, ![1]⟩
abbrev S1x256 : Shape := ⟨2, ![1, 256]⟩
abbrev S4x2048x256 : Shape := ⟨3, ![4, 2048, 256]⟩
abbrev S1x512x1024 : Shape := ⟨3, ![1, 512, 1024]⟩
abbrev S1x512x256 : Shape := ⟨3, ![1, 512, 256]⟩
abbrev S512x1024 : Shape := ⟨2, ![512, 1024]⟩
abbrev S512x256 : Shape := ⟨2, ![512, 256]⟩
abbrev S4x2048x2048 : Shape := ⟨3, ![4, 2048, 2048]⟩
abbrev S1x2048x256 : Shape := ⟨3, ![1, 2048, 256]⟩
abbrev S1x512x2048 : Shape := ⟨3, ![1, 512, 2048]⟩
abbrev S2048x256 : Shape := ⟨2, ![2048, 256]⟩
abbrev S512x2048 : Shape := ⟨2, ![512, 2048]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S256x1024, .f32⟩
  | .hbm, ⟨2, _⟩ => ⟨S256, .f32⟩
  | .hbm, ⟨3, _⟩ => ⟨S1x1, .f32⟩
  | .hbm, ⟨4, _⟩ => ⟨S1, .f32⟩
  | .hbm, ⟨5, _⟩ => ⟨S1x256, .f32⟩
  | .hbm, ⟨6, _⟩ => ⟨S4x2048x256, .bf16⟩
  | .hbm, ⟨7, _⟩ => ⟨S1x1, .f32⟩
  | .hbm, ⟨8, _⟩ => ⟨S4x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S256x1024, .f32⟩
  | .local _ .vmem, ⟨3, _⟩ => ⟨S1x256, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1, .f32⟩
  | .local _ .vmem, ⟨11, _⟩ => ⟨S1x1, .f32⟩
  | .local _ .vmem, ⟨12, _⟩ => ⟨S1x512x2048, .f32⟩
  | .local _ .vmem, ⟨13, _⟩ => ⟨S1x512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S256_S1x256 : S256.ShapeCasts S1x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  shapeCasts_S1_S1x1 : S1.ShapeCasts S1x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x1024_S256x1024_S512x256_1_1_0_0_n_n_wf : DotDims.WF S512x1024 S256x1024 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x2048x256.size a
  hwx0_3 : ∀ i : grid0.Coords, EltTy.bits .bf16 = 32 ∨ (Rect.block (s := S4x2048x256) S1x512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S4x2048x256.size a
  hwx1_0 : ∀ i : grid1.Coords, EltTy.bits .bf16 = 32 ∨ (Rect.block (s := S4x2048x256) S1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S4x2048x256.size a
  hwx1_1 : ∀ i : grid1.Coords, EltTy.bits .bf16 = 32 ∨ (Rect.block (s := S4x2048x256) S1x2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S4x2048x2048.size a
  hwx1_4 : ∀ i : grid1.Coords, EltTy.bits .f32 = 32 ∨ (Rect.block (s := S4x2048x2048) S1x512x2048.size (cc1_transform_4 i) (hinb1_4 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S256x1024 : Shape := ⟨2, ![256, 1024]⟩
abbrev S256 : Shape := ⟨1, ![256]⟩
abbrev S1x1 : Shape := ⟨2, ![1, 1]⟩
abbrev S1 : Shape := ⟨1, ![1]⟩
abbrev S4x2048x256 : Shape := ⟨3, ![4, 2048, 256]⟩
abbrev S1x1x256 : Shape := ⟨3, ![1, 1, 256]⟩
abbrev S_ : Shape := ⟨0, ![]⟩
abbrev S4x2048x2048 : Shape := ⟨3, ![4, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S256x1024, .f32⟩
  | .hbm, ⟨2, _⟩ => ⟨S256, .f32⟩
  | .hbm, ⟨3, _⟩ => ⟨S1x1, .f32⟩
  | .hbm, ⟨4, _⟩ => ⟨S1, .f32⟩
  | .hbm, ⟨5, _⟩ => ⟨S4x2048x256, .f32⟩
  | .hbm, ⟨6, _⟩ => ⟨S1x1x256, .f32⟩
  | .hbm, ⟨7, _⟩ => ⟨S4x2048x256, .f32⟩
  | .hbm, ⟨8, _⟩ => ⟨S4x2048x256, .f32⟩
  | .hbm, ⟨9, _⟩ => ⟨S_, .f32⟩
  | .hbm, ⟨10, _⟩ => ⟨S4x2048x256, .f32⟩
  | .hbm, ⟨11, _⟩ => ⟨S4x2048x256, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048x2048, .f32⟩
  | .hbm, ⟨18, _⟩ => ⟨S4x2048x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  bcast_S_S4x2048x256 : S_.BroadcastsInDim S4x2048x256 (![] : Fin 0 → Fin S4x2048x256.rank)
  shapeCasts_S1x1_S_ : S1x1.ShapeCasts S_
  bcast_S_S4x2048x2048 : S_.BroadcastsInDim S4x2048x2048 (![] : Fin 0 → Fin S4x2048x2048.rank)
  shapeCasts_S1_S_ : S1.ShapeCasts S_
  dot_S4x2048x1024_S256x1024_S4x2048x256_2_1_01_0_n_n_wf : DotDims.WF S4x2048x1024 S256x1024 S4x2048x256 [2] [1] [0, 1] [0] [] []
  dot_S4x2048x256_S4x2048x256_S4x2048x2048_2_2_1_1_0_0_wf : DotDims.WF S4x2048x256 S4x2048x256 S4x2048x2048 [2] [2] [1] [1] [0] [0]

variable [Facts₀]

def dot_S4x2048x1024_S256x1024_S4x2048x256_2_1_01_0_n_n : DotDims S4x2048x1024 S256x1024 S4x2048x256 where
  lhsContracting := [2]
  rhsContracting := [1]
  lhsNonContracting := [0, 1]
  rhsNonContracting := [0]
  lhsBatch := []
  rhsBatch := []
  wf := dot_S4x2048x1024_S256x1024_S4x2048x256_2_1_01_0_n_n_wf
def dot_S4x2048x256_S4x2048x256_S4x2048x2048_2_2_1_1_0_0 : DotDims S4x2048x256 S4x2048x256 S4x2048x2048 where
  lhsContracting := [2]
  rhsContracting := [2]
  lhsNonContracting := [1]
  rhsNonContracting := [1]
  lhsBatch := [0]
  rhsBatch := [0]
  wf := dot_S4x2048x256_S4x2048x256_S4x2048x2048_2_2_1_1_0_0_wf

class Facts : Prop extends Facts₀ where

variable [Facts]
-- ==== Proof.K.Body0.lean ====
/-
  The projection kernel, one grid point at a time.

  The grid has 4 × 4 points; at point (b, s) the kernel is handed rows 512·s … 512·s + 511 of batch b of the hidden
  states (a [1, 512, 1024] block), the whole [256, 1024] weight and the bias as a [1, 256] row, and fills the matching
  [1, 512, 256] block of the projected rows with ONE store: the value `k0_pay1` of the three loaded blocks. Nothing is
  kept from point to point. So what the body leaves in the output block is a function of the three input blocks at
  the point (`out0_3`), each input block is found in place whether or not it was moved there at that point, and
  that is all the launch needs to know about the body.
-/
import proofs.«177731_j83846351553194_2_alg».proof.Proof.Gen.Kernel.Launch
import proofs.«177731_j83846351553194_2_alg».proof.Proof.Gen.Kernel.Skeleton
import proofs.«177731_j83846351553194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-state block is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight, moved once, is still in its buffer at every later point: its block index never changes. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S1x512x1024 := Rect.unit (s := S1x512x1024) ![0, 0, 0] S1x512x1024.size Gen.inb_S1x512x1024_S1x512x1024_0_0_0
abbrev r0_1 : Rect S256x1024 := Rect.unit (s := S256x1024) ![0, 0] S256x1024.size Gen.inb_S256x1024_S256x1024_0_0
abbrev r0_2 : Rect S1x256 := Rect.unit (s := S1x256) ![0, 0] S1x256.size Gen.inb_S1x256_S1x256_0_0
abbrev r0_3 : Rect S1x512x256 := Rect.unit (s := S1x512x256) ![0, 0, 0] S1x512x256.size Gen.inb_S1x512x256_S1x512x256_0_0_0

/-- What the body leaves in the output block, from the three input blocks: its one store. -/
def out0_3 (x0 : Vec F S1x512x1024 .f32) (x1 : Vec F S256x1024 .f32) (x2 : Vec F S1x256 .f32) : Vec F S1x512x256 .bf16 :=
  View.canon [⟨r0_3, Gen.k0_pay1 (View.ld x0 r0_0) (View.ld x1 r0_1) (View.ld x2 r0_2)⟩]

/-- The store takes the whole block, so it covers it. -/
theorem cover0_3 (p0 : Vec F S1x512x256 .bf16) (y : S1x512x256.Idx) :
    ∃ pc ∈ ([⟨r0_3, p0⟩] : List (View.Piece (Elt F) S1x512x256 .bf16)), y ∈ pc.1.set :=
  View.cover_of_tiled [⟨r0_3, p0⟩] S1x512x256.size (by rfl) y

/-! ## The body's triple -/

set_option maxHeartbeats 1000000 in
/-- On whole buffers holding the three input blocks (and anything in the output's), the body runs to its end, leaves
    the inputs as they were and the output at `out0_3` of them. -/
theorem sound_kernel0 (c : Dev nD) (E : Set ℕ) (i : grid0.Coords)
    (arg2 : Memref sig .tc .vmem S1x512x1024 .f32) (harg2 : arg2.IsWhole) (arg3 : Memref sig .tc .vmem S256x1024 .f32) (harg3 : arg3.IsWhole)
    (arg4 : Memref sig .tc .vmem S1x256 .f32) (harg4 : arg4.IsWhole) (arg5 : Memref sig .tc .vmem S1x512x256 .bf16) (harg5 : arg5.IsWhole)
    (x0 : Vec F S1x512x1024 .f32) (x1 : Vec F S256x1024 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [Gen.cc0__proj_kernel_eq_skeleton]; unfold Gen.cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The arrays as the region finds them; after the body each input's buffer at its block and the output's at
    `out0_3` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (Gen.st0_0 t) fullShare ((dat0 V c).before 0 t d))
    ∗ (∃ d, owns (c : Thread nD τ) (Gen.st0_1 t) fullShare ((dat0 V c).before 1 t d))
    ∗ (∃ d, owns (c : Thread nD τ) (Gen.st0_2 t) fullShare ((dat0 V c).before 2 t d))
    ∗ (∃ d, owns (c : Thread nD τ) (Gen.st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (Gen.st0_0 t) fullShare ((dat0 V c).after 0 t)
    ∗ owns (c : Thread nD τ) (Gen.st0_1 t) fullShare ((dat0 V c).after 1 t)
    ∗ owns (c : Thread nD τ) (Gen.st0_2 t) fullShare ((dat0 V c).after 2 t)
    ∗ owns (c : Thread nD τ) (Gen.st0_3 t) fullShare ((dat0 V c).after 3 t))

theorem sound_body0 (c : Dev nD) (t : Fin cfg0.N) :
    bodyPre0 V c t ⊢ wp frame (wpE (defs₀ (F := F)) Variants.none c none) Set.univ (Gen.bodyAt0 t) (fun _ => bodyPost0 V c t) := by
  unfold bodyPre0 bodyPost0 Gen.bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [Gen.bigSep_W0, Gen.bigSep_W0]
  exact sound_body0 V c t

end Cert.Kernel.Fr

end
-- ==== Proof.K.Body1.lean ====
/-
  The score kernel, one grid point at a time.

  The grid has 4 × 4 points; at point (b, i) the kernel is handed rows 512·i … 512·i + 511 of batch b of the projected
  rows (a [1, 512, 256] block), ALL 2048 rows of batch b (a [1, 2048, 256] block of the same array), and the classifier's
  weight and bias as two [1, 1] blocks, and fills the [1, 512, 2048] block of the contact map with ONE store: the value
  `k1_pay1` of the four loaded blocks. Nothing is kept from point to point.
  The first two windows read one array. Reading needs only a positive share of an array, so the array is held in two
  halves, one per window (`q`); the output and the two scalars are held whole.
-/
import proofs.«177731_j83846351553194_2_alg».proof.Proof.Gen.Kernel.Launch
import proofs.«177731_j83846351553194_2_alg».proof.Proof.Gen.Kernel.Skeleton
import proofs.«177731_j83846351553194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of 512 rows is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The batch's 2048 rows, moved when the batch changes, are still in their buffer at the points in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The classifier's weight, moved once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The classifier's bias, moved once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_0 : Rect S1x512x256 := Rect.unit (s := S1x512x256) ![0, 0, 0] S1x512x256.size Gen.inb_S1x512x256_S1x512x256_0_0_0
abbrev r1_1 : Rect S1x2048x256 := Rect.unit (s := S1x2048x256) ![0, 0, 0] S1x2048x256.size Gen.inb_S1x2048x256_S1x2048x256_0_0_0
abbrev r1_2 : Rect S1x1 := Rect.unit (s := S1x1) ![0, 0] S1x1.size Gen.inb_S1x1_S1x1_0_0
abbrev r1_4 : Rect S1x512x2048 := Rect.unit (s := S1x512x2048) ![0, 0, 0] S1x512x2048.size Gen.inb_S1x512x2048_S1x512x2048_0_0_0

/-- What the body leaves in the output block, from the four input blocks: its one store. -/
def out1_4 (x0 : Vec F S1x512x256 .bf16) (x1 : Vec F S1x2048x256 .bf16) (x2 : Vec F S1x1 .f32) (x3 : Vec F S1x1 .f32) : Vec F S1x512x2048 .f32 :=
  View.canon [⟨r1_4, Gen.k1_pay1 (View.ld x0 r1_0) (View.ld x1 r1_1) (View.ld x2 r1_2) (View.ld x3 r1_2)⟩]

/-- The store takes the whole block, so it covers it. -/
theorem cover1_4 (p0 : Vec F S1x512x2048 .f32) (y : S1x512x2048.Idx) :
    ∃ pc ∈ ([⟨r1_4, p0⟩] : List (View.Piece (Elt F) S1x512x2048 .f32)), y ∈ pc.1.set :=
  View.cover_of_tiled [⟨r1_4, p0⟩] S1x512x2048.size (by rfl) y

/-! ## The body's triple -/

set_option maxHeartbeats 1000000 in
/-- On whole buffers holding the four input blocks (and anything in the output's), the body runs to its end, leaves
    the inputs as they were and the output at `out1_4` of them. -/
theorem sound_kernel1 (c : Dev nD) (E : Set ℕ) (i : grid1.Coords)
    (arg2 : Memref sig .tc .vmem S1x512x256 .bf16) (harg2 : arg2.IsWhole) (arg3 : Memref sig .tc .vmem S1x2048x256 .bf16) (harg3 : arg3.IsWhole)
    (arg4 : Memref sig .tc .vmem S1x1 .f32) (harg4 : arg4.IsWhole) (arg5 : Memref sig .tc .vmem S1x1 .f32) (harg5 : arg5.IsWhole)
    (arg6 : Memref sig .tc .vmem S1x512x2048 .f32) (harg6 : arg6.IsWhole)
    (x0 : Vec F S1x512x256 .bf16) (x1 : Vec F S1x2048x256 .bf16) (x2 : Vec F S1x1 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__score_kernel i arg2 harg2 arg3 harg3 arg4 harg4 arg5 harg5 arg6 harg6) K := by
  simp only [Gen.cc1__score_kernel_eq_skeleton]; unfold Gen.cc1__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The arrays as the region finds them; after the body each input's buffer at its block and the output's at
    `out1_4` of the input blocks; the scoped rest and the generator register untouched; nothing owed; the array of
    projected rows in two halves between the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (Gen.st1_0 t) fullShare ((dat1 V c).before 0 t d))
    ∗ (∃ d, owns (c : Thread nD τ) (Gen.st1_1 t) fullShare ((dat1 V c).before 1 t d))
    ∗ (∃ d, owns (c : Thread nD τ) (Gen.st1_2 t) fullShare ((dat1 V c).before 2 t d))
    ∗ (∃ d, owns (c : Thread nD τ) (Gen.st1_3 t) fullShare ((dat1 V c).before 3 t d))
    ∗ (∃ d, owns (c : Thread nD τ) (Gen.st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (Gen.st1_0 t) fullShare ((dat1 V c).after 0 t)
    ∗ owns (c : Thread nD τ) (Gen.st1_1 t) fullShare ((dat1 V c).after 1 t)
    ∗ owns (c : Thread nD τ) (Gen.st1_2 t) fullShare ((dat1 V c).after 2 t)
    ∗ owns (c : Thread nD τ) (Gen.st1_3 t) fullShare ((dat1 V c).after 3 t)
    ∗ owns (c : Thread nD τ) (Gen.st1_4 t) fullShare ((dat1 V c).after 4 t))

theorem sound_body1 (c : Dev nD) (t : Fin cfg1.N) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [Gen.bigSep_W1, Gen.bigSep_W1]
  exact sound_body1 V c t

end Cert.Kernel.Fr

end
-- ==== Proof.K.Run.lean ====
/-
  The whole program from launch to return: a reshape of the bias, the projection kernel over its 16 grid points, a
  reshape of the classifier's bias, the score kernel over its 16 grid points.

  Between two of these four items every unscoped buffer of the core is held whole at known contents: the launch
  memory `W0`, then after each host step the step's result written into its buffer (`W1`, `W3`), and after each kernel
  the kernel's output array at what its write-backs leave and everything else as it was (`W2`, `W4`). Each kernel is
  entered by sorting its windows' arrays out of those buffers and left by putting them back. The projection kernel's four
  windows are on four different arrays. The score kernel's first two windows both read the array of projected rows: at
  entry that buffer is split in two halves, one per window, and at exit the two halves — both still at the contents
  they were entered with, the windows being inputs — are joined again.
  The result: every execution terminates without a fault, and at the end every unscoped buffer holds `W4`.
-/
import proofs.«177731_j83846351553194_2_alg».proof.Proof.K.Body0
import proofs.«177731_j83846351553194_2_alg».proof.Proof.K.Body1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the bias is reshaped to a row. -/
abbrev W1 : Dev nD → Valuation τ sig (Elt F) := fun c => StableHlo.after Gen.hostOps0 (W0 m c)
abbrev V1 : (c : Dev nD) → (b : Ref sig .tc) → Buf (Elt F) ((c : Thread nD τ).loc b) := fun c b => W1 m c b
/-- After the projection kernel: its arrays at what the 16 points leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 Gen.launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the classifier's bias is reshaped to [1, 1]. -/
abbrev W3 : Dev nD → Valuation τ sig (Elt F) := fun c => StableHlo.after Gen.hostOps1 (W2 m c)
abbrev V3 : (c : Dev nD) → (b : Ref sig .tc) → Buf (Elt F) ((c : Thread nD τ).loc b) := fun c b => W3 m c b
/-- After the score kernel: the contact map at what the 16 points leave, every other buffer as entered (the kernel's
    other four windows are inputs). -/
def W4 (c : Dev nD) : Valuation τ sig (Elt F) :=
  Function.update (W3 m c) (Proc.devRef .tc main_v3) ((dat1 (V3 m) c).arrAt 4 cfg1.N)
theorem W4_out (c : Dev nD) : W4 m c (Proc.devRef .tc main_v3) = (dat1 (V3 m) c).arrAt 4 cfg1.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..

/-! ## The proof data family and the thread state -/

abbrev adm : (p : Fin 2) → (pcfgs (F := F) p).Adm := fun p => (cfgs p).toPCfg_adm
/-- Both kernels' proof data, each at the contents its kernel is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The core's nine unscoped buffers, one by one -/

/-- The five arguments, the two reshaped rows and the two kernels' outputs. -/
theorem ubufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_arg4) ↦{fullShare} V main_arg4) ∗ (((c : Thread nD τ).loc main_v0) ↦{fullShare} V main_v0)
        ∗ (((c : Thread nD τ).loc main_v1) ↦{fullShare} V main_v1) ∗ (((c : Thread nD τ).loc main_v2) ↦{fullShare} V main_v2)
        ∗ (((c : Thread nD τ).loc main_v3) ↦{fullShare} V main_v3)) := by
  unfold unscopedBufs
  exact bigSep_eq_bigSepL_of_eq [main_arg0, main_arg1, main_arg2, main_arg3, main_arg4, main_v0, main_v1, main_v2, main_v3] (by decide) (by decide) _

/-- The score kernel's five windows' arrays, one by one: the projected rows twice, at half shares; the classifier's
    weight, its reshaped bias and the contact map, whole. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v1) ↦{fullShare.left} Fa 0) ∗ (((c : Thread nD τ).loc main_v1) ↦{fullShare.right} Fa 1)
        ∗ (((c : Thread nD τ).loc main_arg3) ↦{fullShare} Fa 2) ∗ (((c : Thread nD τ).loc main_v2) ↦{fullShare} Fa 3)
        ∗ (((c : Thread nD τ).loc main_v3) ↦{fullShare} Fa 4)) := by
  unfold Dat.arrays
  rw [Gen.bigSep_W1, (Gen.arr_whole1 0).set_eq_univ, (Gen.arr_whole1 2).set_eq_univ,
    (Gen.arr_whole1 3).set_eq_univ, (Gen.arr_whole1 4).set_eq_univ]
  rfl

/-! ## The regions as segments -/

set_option backward.isDefEq.respectTransparency.types false in
/-- The projection kernel: entered from every unscoped buffer at `W1`, left at `W2`. -/
def reg0 : Pipeline.RegionSeg (pcfgs (F := F)) adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) Gen.launch0.win Gen.launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      Gen.launch0.win Gen.launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The score kernel's input arrays end as they were entered. -/
theorem arrAt1_in0 (c : Dev nD) (n : ℕ) : (dat1 (V3 m) c).arrAt 0 n = V3 m c main_v1 :=
  ((dat1 (V3 m) c).arrAt_in 0 rfl _).trans (A_eq1 (V3 m) c 0)
theorem arrAt1_in1 (c : Dev nD) (n : ℕ) : (dat1 (V3 m) c).arrAt 1 n = V3 m c main_v1 :=
  ((dat1 (V3 m) c).arrAt_in 1 rfl _).trans (A_eq1 (V3 m) c 1)
theorem arrAt1_in2 (c : Dev nD) (n : ℕ) : (dat1 (V3 m) c).arrAt 2 n = V3 m c main_arg3 :=
  ((dat1 (V3 m) c).arrAt_in 2 rfl _).trans (A_eq1 (V3 m) c 2)
theorem arrAt1_in3 (c : Dev nD) (n : ℕ) : (dat1 (V3 m) c).arrAt 3 n = V3 m c main_v2 :=
  ((dat1 (V3 m) c).arrAt_in 3 rfl _).trans (A_eq1 (V3 m) c 3)

set_option backward.isDefEq.respectTransparency.types false in
/-- The score kernel: entered from every unscoped buffer at `W3`, left at `W4`. The buffer of projected rows is split
    in two halves for the two windows that read it, and the halves are joined at the exit. -/
def reg1 : Pipeline.RegionSeg (pcfgs (F := F)) adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := iprop((((c : Thread nD τ).loc main_arg0) ↦{fullShare} V3 m c main_arg0) ∗ (((c : Thread nD τ).loc main_arg1) ↦{fullShare} V3 m c main_arg1)
        ∗ (((c : Thread nD τ).loc main_arg2) ↦{fullShare} V3 m c main_arg2) ∗ (((c : Thread nD τ).loc main_arg4) ↦{fullShare} V3 m c main_arg4)
        ∗ (((c : Thread nD τ).loc main_v0) ↦{fullShare} V3 m c main_v0))
  hentry c := by
    rw [Pipeline.ownSems0_none, ← Pipeline.unscopedBufs_held c (W3 m c), ubufs_list, show (pdats m 1 c) = dat1 (V3 m) c from rfl, arrays1_eq]
    iintro ⟨⟨⟨Ha0, Ha1, Ha2, Ha3, Ha4, Hv0, Hv1, Hv2, Hv3⟩, Hp, HO⟩, -, -⟩
    ihave Hs := (pointsTo_share (PosShare.mem_left_op_right fullShare)).1 $$ Hv1
    icases Hs with ⟨Hl, Hr⟩
    imodintro
    isplitl [Hl Hr Ha3 Hv2 Hv3]
    · isplitl [Hl]; · iexact Hl
      isplitl [Hr]; · iexact Hr
      isplitl [Ha3]; · iexact Ha3
      isplitl [Hv2]; · iexact Hv2
      iexact Hv3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Ha2]; · iexact Ha2
    isplitl [Ha4]; · iexact Ha4
    iexact Hv0
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show (pdats m 1 c) = dat1 (V3 m) c from rfl, arrays1_eq]
    unfold Tₙ
    rw [← Pipeline.unscopedBufs_held c (W4 m c), ubufs_list]
    rw [arrAt1_in0, arrAt1_in1, arrAt1_in2, arrAt1_in3,
      W4_out, W4_of_ne m c main_arg0 (by decide), W4_of_ne m c main_arg1 (by decide), W4_of_ne m c main_arg2 (by decide),
      W4_of_ne m c main_arg3 (by decide), W4_of_ne m c main_arg4 (by decide), W4_of_ne m c main_v0 (by decide),
      W4_of_ne m c main_v1 (by decide), W4_of_ne m c main_v2 (by decide)]
    iintro ⟨⟨Hl, Hr, Ha3, Hv2, Hv3⟩, HO, HY, ⟨Ha0, Ha1, Ha2, Ha4, Hv0⟩⟩
    ihave Hv1 := (pointsTo_share (PosShare.mem_left_op_right fullShare)).2 $$ [Hl Hr]
    · isplitl [Hl] <;> iassumption
    imodintro
    isplitl [Hv1 Ha3 Hv2 Hv3 Ha0 Ha1 Ha2 Ha4 Hv0 HY]
    · isplitr [HY]
      · isplitl [Ha0]; · iexact Ha0
        isplitl [Ha1]; · iexact Ha1
        isplitl [Ha2]; · iexact Ha2
        isplitl [Ha3]; · iexact Ha3
        isplitl [Ha4]; · iexact Ha4
        isplitl [Hv0]; · iexact Hv0
        isplitl [Hv1]; · iexact Hv1
        isplitl [Hv2]; · iexact Hv2
        iexact Hv3
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg Gen.hostOps0 Gen.hostOps0_sub hostOps0_fresh (W0 m)),
    .region (reg0 m),
    .host (hseg Gen.hostOps1 Gen.hostOps1_sub hostOps1_fresh (W2 m)),
    .region (reg1 m) ]
theorem main_run (c : Dev nD) : main (F := F) c = Pipeline.Seg.run (segs m) := (Gen.main_chain c).trans (by chain_rfl)

set_option backward.isDefEq.respectTransparency.types false in
/-- Every weakly fair execution of @main from memory `m` with zero counters terminates, nothing faulting, and at the end
    every unscoped buffer of every core holds `W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () Gen.cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Fr

end
-- ==== Proof.K.Ends.lean ====
/-
  The five argument arrays at the end of the run are the launch memory's.

  Walking back from the last boundary: the score kernel changes only the contact map; the reshape before it writes only
  its own result; the projection kernel reads the hidden states and the weight through input windows (an input window's
  array ends as it was entered) and does not touch the other three arguments; the first reshape writes only its own
  result.
-/
import proofs.«177731_j83846351553194_2_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable (m : (ℓ : Loc nD τ sig) → Buf (Elt F) ℓ)

/-- The first reshape writes only `main_v0`. -/
theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [Gen.hostOps0, List.Forall, StableHlo.reshape_writes, Finset.mem_singleton]
    exact StableHlo.devRef_ne_of_ne hb))
/-- The second reshape writes only `main_v2`. -/
theorem W3_of_ne (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [Gen.hostOps1, List.Forall, StableHlo.reshape_writes, Finset.mem_singleton]
    exact StableHlo.devRef_ne_of_ne hb))

/-- The projection kernel's three input arrays end as entered. -/
theorem W2_in0 (c : Dev nD) : W2 m c (Proc.devRef .tc main_arg0) = W1 m c (Proc.devRef .tc main_arg0) :=
  (W2_arr m c 0).trans (((dat0 (V1 m) c).arrAt_in 0 rfl _).trans (A_eq0 (V1 m) c 0))
theorem W2_in1 (c : Dev nD) : W2 m c (Proc.devRef .tc main_arg1) = W1 m c (Proc.devRef .tc main_arg1) :=
  (W2_arr m c 1).trans (((dat0 (V1 m) c).arrAt_in 1 rfl _).trans (A_eq0 (V1 m) c 1))
theorem W2_in2 (c : Dev nD) : W2 m c (Proc.devRef .tc main_v0) = W1 m c (Proc.devRef .tc main_v0) :=
  (W2_arr m c 2).trans (((dat0 (V1 m) c).arrAt_in 2 rfl _).trans (A_eq0 (V1 m) c 2))

theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_in0 m c).trans <|
    (W1_of_ne m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_in1 m c).trans <|
    (W1_of_ne m c main_arg1 (by decide)).trans rfl
theorem W4_main_arg2 (c : Dev nD) : W4 m c (Proc.devRef .tc main_arg2) = m ((c : Thread nD τ).loc main_arg2) :=
  (W4_of_ne m c main_arg2 (by decide)).trans <| (W3_of_ne m c main_arg2 (by decide)).trans <|
    (W2_of_ne m c main_arg2 (by decide)).trans <| (W1_of_ne m c main_arg2 (by decide)).trans rfl
theorem W4_main_arg3 (c : Dev nD) : W4 m c (Proc.devRef .tc main_arg3) = m ((c : Thread nD τ).loc main_arg3) :=
  (W4_of_ne m c main_arg3 (by decide)).trans <| (W3_of_ne m c main_arg3 (by decide)).trans <|
    (W2_of_ne m c main_arg3 (by decide)).trans <| (W1_of_ne m c main_arg3 (by decide)).trans rfl
theorem W4_main_arg4 (c : Dev nD) : W4 m c (Proc.devRef .tc main_arg4) = m ((c : Thread nD τ).loc main_arg4) :=
  (W4_of_ne m c main_arg4 (by decide)).trans <| (W3_of_ne m c main_arg4 (by decide)).trans <|
    (W2_of_ne m c main_arg4 (by decide)).trans <| (W1_of_ne m c main_arg4 (by decide)).trans rfl

/-- The frame: every execution terminates, nothing faulting, with the five arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_W4 m ρ)

end Cert.Kernel.Fr

end
-- ==== Proof.KI.Body0.lean ====
/-
  The projection kernel, one grid point at a time.

  The grid has 4 × 4 points; at point (b, s) the kernel is handed rows 512·s … 512·s + 511 of batch b of the hidden
  states (a [1, 512, 1024] block), the whole [256, 1024] weight and the bias as a [1, 256] row, and fills the matching
  [1, 512, 256] block of the projected rows with ONE store: the value `k0_pay1` of the three loaded blocks. Nothing is
  kept from point to point. So what the body leaves in the output block is a function of the three input blocks at
  the point (`out0_3`), each input block is found in place whether or not it was moved there at that point, and
  that is all the launch needs to know about the body.
-/
import proofs.«177731_j83846351553194_2_alg».proof.Proof.Gen.KernelIdeal.Launch
import proofs.«177731_j83846351553194_2_alg».proof.Proof.Gen.KernelIdeal.Skeleton
import proofs.«177731_j83846351553194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-state block is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight, moved once, is still in its buffer at every later point: its block index never changes. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S1x512x1024 := Rect.unit (s := S1x512x1024) ![0, 0, 0] S1x512x1024.size Gen.inb_S1x512x1024_S1x512x1024_0_0_0
abbrev r0_1 : Rect S256x1024 := Rect.unit (s := S256x1024) ![0, 0] S256x1024.size Gen.inb_S256x1024_S256x1024_0_0
abbrev r0_2 : Rect S1x256 := Rect.unit (s := S1x256) ![0, 0] S1x256.size Gen.inb_S1x256_S1x256_0_0
abbrev r0_3 : Rect S1x512x256 := Rect.unit (s := S1x512x256) ![0, 0, 0] S1x512x256.size Gen.inb_S1x512x256_S1x512x256_0_0_0

/-- What the body leaves in the output block, from the three input blocks: its one store. -/
def out0_3 (x0 : Vec F S1x512x1024 .f32) (x1 : Vec F S256x1024 .f32) (x2 : Vec F S1x256 .f32) : Vec F S1x512x256 .bf16 :=
  View.canon [⟨r0_3, Gen.k0_pay1 (View.ld x0 r0_0) (View.ld x1 r0_1) (View.ld x2 r0_2)⟩]

/-- The store takes the whole block, so it covers it. -/
theorem cover0_3 (p0 : Vec F S1x512x256 .bf16) (y : S1x512x256.Idx) :
    ∃ pc ∈ ([⟨r0_3, p0⟩] : List (View.Piece (Elt F) S1x512x256 .bf16)), y ∈ pc.1.set :=
  View.cover_of_tiled [⟨r0_3, p0⟩] S1x512x256.size (by rfl) y

/-! ## The body's triple -/

set_option maxHeartbeats 1000000 in
/-- On whole buffers holding the three input blocks (and anything in the output's), the body runs to its end, leaves
    the inputs as they were and the output at `out0_3` of them. -/
theorem sound_kernel0 (c : Dev nD) (E : Set ℕ) (i : grid0.Coords)
    (arg2 : Memref sig .tc .vmem S1x512x1024 .f32) (harg2 : arg2.IsWhole) (arg3 : Memref sig .tc .vmem S256x1024 .f32) (harg3 : arg3.IsWhole)
    (arg4 : Memref sig .tc .vmem S1x256 .f32) (harg4 : arg4.IsWhole) (arg5 : Memref sig .tc .vmem S1x512x256 .bf16) (harg5 : arg5.IsWhole)
    (x0 : Vec F S1x512x1024 .f32) (x1 : Vec F S256x1024 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [Gen.cc0__proj_kernel_eq_skeleton]; unfold Gen.cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The arrays as the region finds them; after the body each input's buffer at its block and the output's at
    `out0_3` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (Gen.st0_0 t) fullShare ((dat0 V c).before 0 t d))
    ∗ (∃ d, owns (c : Thread nD τ) (Gen.st0_1 t) fullShare ((dat0 V c).before 1 t d))
    ∗ (∃ d, owns (c : Thread nD τ) (Gen.st0_2 t) fullShare ((dat0 V c).before 2 t d))
    ∗ (∃ d, owns (c : Thread nD τ) (Gen.st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (Gen.st0_0 t) fullShare ((dat0 V c).after 0 t)
    ∗ owns (c : Thread nD τ) (Gen.st0_1 t) fullShare ((dat0 V c).after 1 t)
    ∗ owns (c : Thread nD τ) (Gen.st0_2 t) fullShare ((dat0 V c).after 2 t)
    ∗ owns (c : Thread nD τ) (Gen.st0_3 t) fullShare ((dat0 V c).after 3 t))

theorem sound_body0 (c : Dev nD) (t : Fin cfg0.N) :
    bodyPre0 V c t ⊢ wp frame (wpE (defs₀ (F := F)) Variants.none c none) Set.univ (Gen.bodyAt0 t) (fun _ => bodyPost0 V c t) := by
  unfold bodyPre0 bodyPost0 Gen.bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [Gen.bigSep_W0, Gen.bigSep_W0]
  exact sound_body0 V c t

end Cert.KernelIdeal.Fr

end
-- ==== Proof.KI.Body1.lean ====
/-
  The score kernel, one grid point at a time.

  The grid has 4 × 4 points; at point (b, i) the kernel is handed rows 512·i … 512·i + 511 of batch b of the projected
  rows (a [1, 512, 256] block), ALL 2048 rows of batch b (a [1, 2048, 256] block of the same array), and the classifier's
  weight and bias as two [1, 1] blocks, and fills the [1, 512, 2048] block of the contact map with ONE store: the value
  `k1_pay1` of the four loaded blocks. Nothing is kept from point to point.
  The first two windows read one array. Reading needs only a positive share of an array, so the array is held in two
  halves, one per window (`q`); the output and the two scalars are held whole.
-/
import proofs.«177731_j83846351553194_2_alg».proof.Proof.Gen.KernelIdeal.Launch
import proofs.«177731_j83846351553194_2_alg».proof.Proof.Gen.KernelIdeal.Skeleton
import proofs.«177731_j83846351553194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of 512 rows is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The batch's 2048 rows, moved when the batch changes, are still in their buffer at the points in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The classifier's weight, moved once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The classifier's bias, moved once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_0 : Rect S1x512x256 := Rect.unit (s := S1x512x256) ![0, 0, 0] S1x512x256.size Gen.inb_S1x512x256_S1x512x256_0_0_0
abbrev r1_1 : Rect S1x2048x256 := Rect.unit (s := S1x2048x256) ![0, 0, 0] S1x2048x256.size Gen.inb_S1x2048x256_S1x2048x256_0_0_0
abbrev r1_2 : Rect S1x1 := Rect.unit (s := S1x1) ![0, 0] S1x1.size Gen.inb_S1x1_S1x1_0_0
abbrev r1_4 : Rect S1x512x2048 := Rect.unit (s := S1x512x2048) ![0, 0, 0] S1x512x2048.size Gen.inb_S1x512x2048_S1x512x2048_0_0_0

/-- What the body leaves in the output block, from the four input blocks: its one store. -/
def out1_4 (x0 : Vec F S1x512x256 .bf16) (x1 : Vec F S1x2048x256 .bf16) (x2 : Vec F S1x1 .f32) (x3 : Vec F S1x1 .f32) : Vec F S1x512x2048 .f32 :=
  View.canon [⟨r1_4, Gen.k1_pay1 (View.ld x0 r1_0) (View.ld x1 r1_1) (View.ld x2 r1_2) (View.ld x3 r1_2)⟩]

/-- The store takes the whole block, so it covers it. -/
theorem cover1_4 (p0 : Vec F S1x512x2048 .f32) (y : S1x512x2048.Idx) :
    ∃ pc ∈ ([⟨r1_4, p0⟩] : List (View.Piece (Elt F) S1x512x2048 .f32)), y ∈ pc.1.set :=
  View.cover_of_tiled [⟨r1_4, p0⟩] S1x512x2048.size (by rfl) y

/-! ## The body's triple -/

set_option maxHeartbeats 1000000 in
/-- On whole buffers holding the four input blocks (and anything in the output's), the body runs to its end, leaves
    the inputs as they were and the output at `out1_4` of them. -/
theorem sound_kernel1 (c : Dev nD) (E : Set ℕ) (i : grid1.Coords)
    (arg2 : Memref sig .tc .vmem S1x512x256 .bf16) (harg2 : arg2.IsWhole) (arg3 : Memref sig .tc .vmem S1x2048x256 .bf16) (harg3 : arg3.IsWhole)
    (arg4 : Memref sig .tc .vmem S1x1 .f32) (harg4 : arg4.IsWhole) (arg5 : Memref sig .tc .vmem S1x1 .f32) (harg5 : arg5.IsWhole)
    (arg6 : Memref sig .tc .vmem S1x512x2048 .f32) (harg6 : arg6.IsWhole)
    (x0 : Vec F S1x512x256 .bf16) (x1 : Vec F S1x2048x256 .bf16) (x2 : Vec F S1x1 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__score_kernel i arg2 harg2 arg3 harg3 arg4 harg4 arg5 harg5 arg6 harg6) K := by
  simp only [Gen.cc1__score_kernel_eq_skeleton]; unfold Gen.cc1__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The arrays as the region finds them; after the body each input's buffer at its block and the output's at
    `out1_4` of the input blocks; the scoped rest and the generator register untouched; nothing owed; the array of
    projected rows in two halves between the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (Gen.st1_0 t) fullShare ((dat1 V c).before 0 t d))
    ∗ (∃ d, owns (c : Thread nD τ) (Gen.st1_1 t) fullShare ((dat1 V c).before 1 t d))
    ∗ (∃ d, owns (c : Thread nD τ) (Gen.st1_2 t) fullShare ((dat1 V c).before 2 t d))
    ∗ (∃ d, owns (c : Thread nD τ) (Gen.st1_3 t) fullShare ((dat1 V c).before 3 t d))
    ∗ (∃ d, owns (c : Thread nD τ) (Gen.st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (Gen.st1_0 t) fullShare ((dat1 V c).after 0 t)
    ∗ owns (c : Thread nD τ) (Gen.st1_1 t) fullShare ((dat1 V c).after 1 t)
    ∗ owns (c : Thread nD τ) (Gen.st1_2 t) fullShare ((dat1 V c).after 2 t)
    ∗ owns (c : Thread nD τ) (Gen.st1_3 t) fullShare ((dat1 V c).after 3 t)
    ∗ owns (c : Thread nD τ) (Gen.st1_4 t) fullShare ((dat1 V c).after 4 t))

theorem sound_body1 (c : Dev nD) (t : Fin cfg1.N) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [Gen.bigSep_W1, Gen.bigSep_W1]
  exact sound_body1 V c t

end Cert.KernelIdeal.Fr

end
-- ==== Proof.KI.Run.lean ====
/-
  The whole program from launch to return: a reshape of the bias, the projection kernel over its 16 grid points, a
  reshape of the classifier's bias, the score kernel over its 16 grid points.

  Between two of these four items every unscoped buffer of the core is held whole at known contents: the launch
  memory `W0`, then after each host step the step's result written into its buffer (`W1`, `W3`), and after each kernel
  the kernel's output array at what its write-backs leave and everything else as it was (`W2`, `W4`). Each kernel is
  entered by sorting its windows' arrays out of those buffers and left by putting them back. The projection kernel's four
  windows are on four different arrays. The score kernel's first two windows both read the array of projected rows: at
  entry that buffer is split in two halves, one per window, and at exit the two halves — both still at the contents
  they were entered with, the windows being inputs — are joined again.
  The result: every execution terminates without a fault, and at the end every unscoped buffer holds `W4`.
-/
import proofs.«177731_j83846351553194_2_alg».proof.Proof.KI.Body0
import proofs.«177731_j83846351553194_2_alg».proof.Proof.KI.Body1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the bias is reshaped to a row. -/
abbrev W1 : Dev nD → Valuation τ sig (Elt F) := fun c => StableHlo.after Gen.hostOps0 (W0 m c)
abbrev V1 : (c : Dev nD) → (b : Ref sig .tc) → Buf (Elt F) ((c : Thread nD τ).loc b) := fun c b => W1 m c b
/-- After the projection kernel: its arrays at what the 16 points leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 Gen.launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the classifier's bias is reshaped to [1, 1]. -/
abbrev W3 : Dev nD → Valuation τ sig (Elt F) := fun c => StableHlo.after Gen.hostOps1 (W2 m c)
abbrev V3 : (c : Dev nD) → (b : Ref sig .tc) → Buf (Elt F) ((c : Thread nD τ).loc b) := fun c b => W3 m c b
/-- After the score kernel: the contact map at what the 16 points leave, every other buffer as entered (the kernel's
    other four windows are inputs). -/
def W4 (c : Dev nD) : Valuation τ sig (Elt F) :=
  Function.update (W3 m c) (Proc.devRef .tc main_v3) ((dat1 (V3 m) c).arrAt 4 cfg1.N)
theorem W4_out (c : Dev nD) : W4 m c (Proc.devRef .tc main_v3) = (dat1 (V3 m) c).arrAt 4 cfg1.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..

/-! ## The proof data family and the thread state -/

abbrev adm : (p : Fin 2) → (pcfgs (F := F) p).Adm := fun p => (cfgs p).toPCfg_adm
/-- Both kernels' proof data, each at the contents its kernel is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The core's nine unscoped buffers, one by one -/

/-- The five arguments, the two reshaped rows and the two kernels' outputs. -/
theorem ubufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_arg4) ↦{fullShare} V main_arg4) ∗ (((c : Thread nD τ).loc main_v0) ↦{fullShare} V main_v0)
        ∗ (((c : Thread nD τ).loc main_v1) ↦{fullShare} V main_v1) ∗ (((c : Thread nD τ).loc main_v2) ↦{fullShare} V main_v2)
        ∗ (((c : Thread nD τ).loc main_v3) ↦{fullShare} V main_v3)) := by
  unfold unscopedBufs
  exact bigSep_eq_bigSepL_of_eq [main_arg0, main_arg1, main_arg2, main_arg3, main_arg4, main_v0, main_v1, main_v2, main_v3] (by decide) (by decide) _

/-- The score kernel's five windows' arrays, one by one: the projected rows twice, at half shares; the classifier's
    weight, its reshaped bias and the contact map, whole. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v1) ↦{fullShare.left} Fa 0) ∗ (((c : Thread nD τ).loc main_v1) ↦{fullShare.right} Fa 1)
        ∗ (((c : Thread nD τ).loc main_arg3) ↦{fullShare} Fa 2) ∗ (((c : Thread nD τ).loc main_v2) ↦{fullShare} Fa 3)
        ∗ (((c : Thread nD τ).loc main_v3) ↦{fullShare} Fa 4)) := by
  unfold Dat.arrays
  rw [Gen.bigSep_W1, (Gen.arr_whole1 0).set_eq_univ, (Gen.arr_whole1 2).set_eq_univ,
    (Gen.arr_whole1 3).set_eq_univ, (Gen.arr_whole1 4).set_eq_univ]
  rfl

/-! ## The regions as segments -/

set_option backward.isDefEq.respectTransparency.types false in
/-- The projection kernel: entered from every unscoped buffer at `W1`, left at `W2`. -/
def reg0 : Pipeline.RegionSeg (pcfgs (F := F)) adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) Gen.launch0.win Gen.launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      Gen.launch0.win Gen.launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The score kernel's input arrays end as they were entered. -/
theorem arrAt1_in0 (c : Dev nD) (n : ℕ) : (dat1 (V3 m) c).arrAt 0 n = V3 m c main_v1 :=
  ((dat1 (V3 m) c).arrAt_in 0 rfl _).trans (A_eq1 (V3 m) c 0)
theorem arrAt1_in1 (c : Dev nD) (n : ℕ) : (dat1 (V3 m) c).arrAt 1 n = V3 m c main_v1 :=
  ((dat1 (V3 m) c).arrAt_in 1 rfl _).trans (A_eq1 (V3 m) c 1)
theorem arrAt1_in2 (c : Dev nD) (n : ℕ) : (dat1 (V3 m) c).arrAt 2 n = V3 m c main_arg3 :=
  ((dat1 (V3 m) c).arrAt_in 2 rfl _).trans (A_eq1 (V3 m) c 2)
theorem arrAt1_in3 (c : Dev nD) (n : ℕ) : (dat1 (V3 m) c).arrAt 3 n = V3 m c main_v2 :=
  ((dat1 (V3 m) c).arrAt_in 3 rfl _).trans (A_eq1 (V3 m) c 3)

set_option backward.isDefEq.respectTransparency.types false in
/-- The score kernel: entered from every unscoped buffer at `W3`, left at `W4`. The buffer of projected rows is split
    in two halves for the two windows that read it, and the halves are joined at the exit. -/
def reg1 : Pipeline.RegionSeg (pcfgs (F := F)) adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := iprop((((c : Thread nD τ).loc main_arg0) ↦{fullShare} V3 m c main_arg0) ∗ (((c : Thread nD τ).loc main_arg1) ↦{fullShare} V3 m c main_arg1)
        ∗ (((c : Thread nD τ).loc main_arg2) ↦{fullShare} V3 m c main_arg2) ∗ (((c : Thread nD τ).loc main_arg4) ↦{fullShare} V3 m c main_arg4)
        ∗ (((c : Thread nD τ).loc main_v0) ↦{fullShare} V3 m c main_v0))
  hentry c := by
    rw [Pipeline.ownSems0_none, ← Pipeline.unscopedBufs_held c (W3 m c), ubufs_list, show (pdats m 1 c) = dat1 (V3 m) c from rfl, arrays1_eq]
    iintro ⟨⟨⟨Ha0, Ha1, Ha2, Ha3, Ha4, Hv0, Hv1, Hv2, Hv3⟩, Hp, HO⟩, -, -⟩
    ihave Hs := (pointsTo_share (PosShare.mem_left_op_right fullShare)).1 $$ Hv1
    icases Hs with ⟨Hl, Hr⟩
    imodintro
    isplitl [Hl Hr Ha3 Hv2 Hv3]
    · isplitl [Hl]; · iexact Hl
      isplitl [Hr]; · iexact Hr
      isplitl [Ha3]; · iexact Ha3
      isplitl [Hv2]; · iexact Hv2
      iexact Hv3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Ha2]; · iexact Ha2
    isplitl [Ha4]; · iexact Ha4
    iexact Hv0
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show (pdats m 1 c) = dat1 (V3 m) c from rfl, arrays1_eq]
    unfold Tₙ
    rw [← Pipeline.unscopedBufs_held c (W4 m c), ubufs_list]
    rw [arrAt1_in0, arrAt1_in1, arrAt1_in2, arrAt1_in3,
      W4_out, W4_of_ne m c main_arg0 (by decide), W4_of_ne m c main_arg1 (by decide), W4_of_ne m c main_arg2 (by decide),
      W4_of_ne m c main_arg3 (by decide), W4_of_ne m c main_arg4 (by decide), W4_of_ne m c main_v0 (by decide),
      W4_of_ne m c main_v1 (by decide), W4_of_ne m c main_v2 (by decide)]
    iintro ⟨⟨Hl, Hr, Ha3, Hv2, Hv3⟩, HO, HY, ⟨Ha0, Ha1, Ha2, Ha4, Hv0⟩⟩
    ihave Hv1 := (pointsTo_share (PosShare.mem_left_op_right fullShare)).2 $$ [Hl Hr]
    · isplitl [Hl] <;> iassumption
    imodintro
    isplitl [Hv1 Ha3 Hv2 Hv3 Ha0 Ha1 Ha2 Ha4 Hv0 HY]
    · isplitr [HY]
      · isplitl [Ha0]; · iexact Ha0
        isplitl [Ha1]; · iexact Ha1
        isplitl [Ha2]; · iexact Ha2
        isplitl [Ha3]; · iexact Ha3
        isplitl [Ha4]; · iexact Ha4
        isplitl [Hv0]; · iexact Hv0
        isplitl [Hv1]; · iexact Hv1
        isplitl [Hv2]; · iexact Hv2
        iexact Hv3
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg Gen.hostOps0 Gen.hostOps0_sub hostOps0_fresh (W0 m)),
    .region (reg0 m),
    .host (hseg Gen.hostOps1 Gen.hostOps1_sub hostOps1_fresh (W2 m)),
    .region (reg1 m) ]
theorem main_run (c : Dev nD) : main (F := F) c = Pipeline.Seg.run (segs m) := (Gen.main_chain c).trans (by chain_rfl)

set_option backward.isDefEq.respectTransparency.types false in
/-- Every weakly fair execution of @main from memory `m` with zero counters terminates, nothing faulting, and at the end
    every unscoped buffer of every core holds `W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () Gen.cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Fr

end
-- ==== Proof.KI.Ends.lean ====
/-
  The five argument arrays at the end of the run are the launch memory's.

  Walking back from the last boundary: the score kernel changes only the contact map; the reshape before it writes only
  its own result; the projection kernel reads the hidden states and the weight through input windows (an input window's
  array ends as it was entered) and does not touch the other three arguments; the first reshape writes only its own
  result.
-/
import proofs.«177731_j83846351553194_2_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable (m : (ℓ : Loc nD τ sig) → Buf (Elt F) ℓ)

/-- The first reshape writes only `main_v0`. -/
theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [Gen.hostOps0, List.Forall, StableHlo.reshape_writes, Finset.mem_singleton]
    exact StableHlo.devRef_ne_of_ne hb))
/-- The second reshape writes only `main_v2`. -/
theorem W3_of_ne (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [Gen.hostOps1, List.Forall, StableHlo.reshape_writes, Finset.mem_singleton]
    exact StableHlo.devRef_ne_of_ne hb))

/-- The projection kernel's three input arrays end as entered. -/
theorem W2_in0 (c : Dev nD) : W2 m c (Proc.devRef .tc main_arg0) = W1 m c (Proc.devRef .tc main_arg0) :=
  (W2_arr m c 0).trans (((dat0 (V1 m) c).arrAt_in 0 rfl _).trans (A_eq0 (V1 m) c 0))
theorem W2_in1 (c : Dev nD) : W2 m c (Proc.devRef .tc main_arg1) = W1 m c (Proc.devRef .tc main_arg1) :=
  (W2_arr m c 1).trans (((dat0 (V1 m) c).arrAt_in 1 rfl _).trans (A_eq0 (V1 m) c 1))
theorem W2_in2 (c : Dev nD) : W2 m c (Proc.devRef .tc main_v0) = W1 m c (Proc.devRef .tc main_v0) :=
  (W2_arr m c 2).trans (((dat0 (V1 m) c).arrAt_in 2 rfl _).trans (A_eq0 (V1 m) c 2))

theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_in0 m c).trans <|
    (W1_of_ne m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_in1 m c).trans <|
    (W1_of_ne m c main_arg1 (by decide)).trans rfl
theorem W4_main_arg2 (c : Dev nD) : W4 m c (Proc.devRef .tc main_arg2) = m ((c : Thread nD τ).loc main_arg2) :=
  (W4_of_ne m c main_arg2 (by decide)).trans <| (W3_of_ne m c main_arg2 (by decide)).trans <|
    (W2_of_ne m c main_arg2 (by decide)).trans <| (W1_of_ne m c main_arg2 (by decide)).trans rfl
theorem W4_main_arg3 (c : Dev nD) : W4 m c (Proc.devRef .tc main_arg3) = m ((c : Thread nD τ).loc main_arg3) :=
  (W4_of_ne m c main_arg3 (by decide)).trans <| (W3_of_ne m c main_arg3 (by decide)).trans <|
    (W2_of_ne m c main_arg3 (by decide)).trans <| (W1_of_ne m c main_arg3 (by decide)).trans rfl
theorem W4_main_arg4 (c : Dev nD) : W4 m c (Proc.devRef .tc main_arg4) = m ((c : Thread nD τ).loc main_arg4) :=
  (W4_of_ne m c main_arg4 (by decide)).trans <| (W3_of_ne m c main_arg4 (by decide)).trans <|
    (W2_of_ne m c main_arg4 (by decide)).trans <| (W1_of_ne m c main_arg4 (by decide)).trans rfl

/-- The frame: every execution terminates, nothing faulting, with the five arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_W4 m ρ)

end Cert.KernelIdeal.Fr

end
-- ==== Proof.LibRowsDot.lean ====
/-
  A MATRIX PRODUCT WITH THE RIGHT OPERAND TRANSPOSED, at the ideal values.

  An `[R, K]` array `a` times the transpose of an `[N, K]` array `w` contracts the columns of both: entry `(p, c)` of the
  result is `∑ k, a (p, k) · w (c, k)`, row `p` of `a` against row `c` of `w` (with `w = a` it is the Gram matrix of the rows
  of `a`).  Its dimension record is `DotDims.transposedRhs R K N` (contract axis 1 with axis 1, keep axis 0 of each, no
  batch axes); a printed program's record with the same six lists is that record by unfolding.  Proved here once for
  every `R`, `K`, `N`:
  • there is one contracted axis, of extent `K` (`rank_contr`, `size_contr`);
  • at the output index `(p, c)` and contraction position `k` the left operand is read at `(p, k)` and the right operand
    at `(c, k)` (`lhs_at`, `rhs_at`);
  • so the vector unit's product into a zero accumulator is that sum (`kdotT_apply`), and so is the host's
    `dot_general` over the same record (`hdotT_apply`).
  The sum is read off term by term: no algebra of the extended reals is used, and nothing needs to be finite.
-/
import Idealize.ShloMosaic.Lib.ValueIdx
import Idealize.ShloMosaic.PureOps.Ideal.Laws

noncomputable section

open scoped BigOperators

namespace Cert.RowsDot

open Idealize.ShloMosaic Idealize.ShloMosaic.ValueIdx

section facts

variable (R K N : ℕ)

/-- One axis is contracted. -/
theorem rank_contr : (DotDims.transposedRhs R K N).contr.rank = 1 := rfl

/-- Its extent is the shared extent `K`. -/
theorem size_contr : (DotDims.transposedRhs R K N).contr.size ⟨0, Nat.one_pos⟩ = K := rfl

/-- The left operand's index at output `(p, c)`, contraction position `k`: row `p`, column `k`. -/
theorem lhs_at (p : Fin R) (c : Fin N) (k : Fin K) :
    (DotDims.transposedRhs R K N).lhsIdx (ix2 p c) ((contrEquiv1 (DotDims.transposedRhs R K N) K rfl rfl).symm k) = ix2 p k := by
  have hk := contrEquiv1_symm_val (DotDims.transposedRhs R K N) K rfl rfl k
  funext a
  apply Fin.ext
  match a with
  | ⟨0, _⟩ =>
    show ((DotDims.transposedRhs R K N).lhsIdx (ix2 p c) ((contrEquiv1 (DotDims.transposedRhs R K N) K rfl rfl).symm k) 0).val = p.val
    unfold DotDims.lhsIdx
    rw [dif_neg (show ¬ (0 : Fin 2) ∈ (DotDims.transposedRhs R K N).lhsBatch from List.not_mem_nil),
      dif_pos (show (0 : Fin 2) ∈ (DotDims.transposedRhs R K N).lhsNonContracting from List.mem_singleton.mpr rfl)]
    rfl
  | ⟨1, _⟩ => exact ((DotDims.transposedRhs R K N).lhsIdx_val_of_single rfl (ix2 p c) _).trans hk

/-- The right operand's index at output `(p, c)`, contraction position `k`: row `c`, column `k`. -/
theorem rhs_at (p : Fin R) (c : Fin N) (k : Fin K) :
    (DotDims.transposedRhs R K N).rhsIdx (ix2 p c) ((contrEquiv1 (DotDims.transposedRhs R K N) K rfl rfl).symm k) = ix2 c k := by
  have hk := contrEquiv1_symm_val (DotDims.transposedRhs R K N) K rfl rfl k
  funext a
  apply Fin.ext
  match a with
  | ⟨0, _⟩ =>
    show ((DotDims.transposedRhs R K N).rhsIdx (ix2 p c) ((contrEquiv1 (DotDims.transposedRhs R K N) K rfl rfl).symm k) 0).val = c.val
    unfold DotDims.rhsIdx
    rw [dif_neg (show ¬ (0 : Fin 2) ∈ (DotDims.transposedRhs R K N).rhsBatch from List.not_mem_nil),
      dif_pos (show (0 : Fin 2) ∈ (DotDims.transposedRhs R K N).rhsNonContracting from List.mem_singleton.mpr rfl)]
    rfl
  | ⟨1, _⟩ => exact ((DotDims.transposedRhs R K N).rhsIdx_val_of_single rfl (ix2 p c) _).trans hk

end facts

/-- The sum over the one-axis contraction index, re-indexed by that axis's coordinate. -/
theorem contr_sum {R K N : ℕ} {φ₁ φ₂ : FTy} (l : FVec Ideal ⟨2, ![R, K]⟩ φ₁) (r : FVec Ideal ⟨2, ![N, K]⟩ φ₂)
    (p : Fin R) (c : Fin N) :
    (∑ q : (DotDims.transposedRhs R K N).contr.Idx,
        l ((DotDims.transposedRhs R K N).lhsIdx (ix2 p c) q) * r ((DotDims.transposedRhs R K N).rhsIdx (ix2 p c) q))
      = ∑ k : Fin K, l (ix2 p k) * r (ix2 c k) := by
  rw [← Equiv.sum_comp (contrEquiv1 (DotDims.transposedRhs R K N) K rfl rfl).symm]
  exact Finset.sum_congr rfl fun k _ => by rw [lhs_at R K N p c k, rhs_at R K N p c k]

/-- The vector unit's product into the zero accumulator, read at `(p, c)`: row `p` of `a` against row `c` of `w`. -/
theorem kdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    matmul (DotDims.transposedRhs R K N) prec a w (constant ⟨2, ![R, N]⟩ .f32 0x00000000#32) (ix2 p c)
      = ∑ k : Fin K, a (ix2 p k) * w (ix2 c k) := by
  show FloatOps.matmul (DotDims.transposedRhs R K N) prec a w (constant ⟨2, ![R, N]⟩ .f32 0x00000000#32) (ix2 p c) = _
  rw [Ideal.matmul_constant_zero_apply]
  exact contr_sum a w p c

/-- The host's `dot_general` over the same record, read at `(p, c)`: the same sum. -/
theorem hdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    Host.dotGeneral (DotDims.transposedRhs R K N) prec a w (ix2 p c) = ∑ k : Fin K, a (ix2 p k) * w (ix2 c k) := by
  simp only [Host.dotGeneral]
  rw [Ideal.dotGeneral_apply]
  exact contr_sum a w p c

end Cert.RowsDot

end
-- ==== Proof.Payload.lean ====
/-
  THE TWO KERNEL BODIES' VALUES READ AT AN INDEX, over the extended reals.

  The projection body takes a block of 512 hidden rows of width 1024, the whole 256 x 1024 weight and the bias, and
  produces, at row r and output feature p,
      max ( ∑ d, x (r, d) · W (p, d)  +  b (p) , 0 ) :
  row r of the block against row p of the weight (both contracted on their columns), plus the bias entry of that
  feature, clipped below at zero.  The scores body takes a block of 512 projected rows of width 256, the 2048 projected
  rows of the whole batch element and two scalars, and produces, at (i, j),
      ( ∑ p, q (i, p) · k (j, p) ) · s  +  t :
  row i of the block against row j of the batch element's rows, times the scale, plus the offset.

  At the extended reals every operation is exact: a change of float format is the identity, a product into the zero
  accumulator is the plain sum of products, and the zero word is the real 0.  So each statement is read off the body's
  term operation by operation: the casts that drop or add the leading unit axis only rename the index
  ((0, a, b) ↔ (a, b)), a cast to the same shape is the identity, the bias's one row is repeated over all 512 rows, the
  scalar is the single entry of a 1 x 1 array, and the two dimension records are the record of a product with the right
  operand transposed (contract axis 1 of each, keep axis 0 of each, no batch axes).
-/
import proofs.«177731_j83846351553194_2_alg».proof.Proof.Gen.KernelIdeal.Skeleton
import proofs.«177731_j83846351553194_2_alg».proof.Proof.LibRowsDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The projection's dimension record is that of a [512, 1024] array times the transpose of a [256, 1024] array: the same
    six lists. -/
theorem dot0_eq : dot_S512x1024_S256x1024_S512x256_1_1_0_0_n_n = DotDims.transposedRhs 512 1024 256 := rfl

/-- The scores' dimension record is that of a [512, 256] array times the transpose of a [2048, 256] array: the same six
    lists. -/
theorem dot1_eq : dot_S512x256_S2048x256_S512x2048_1_1_0_0_n_n = DotDims.transposedRhs 512 256 2048 := rfl

/-- The entry at position (0, 0) of a 1 x 1 array is the array at the index (0, 0). -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) := by
  unfold extractAt
  congr 1
  funext a
  match a with
  | ⟨0, _⟩ => rfl
  | ⟨1, _⟩ => rfl

/-- THE PROJECTION AT (0, r, p): row r of the block against row p of the weight, summed over the 1024 columns, plus the
    bias at p, clipped below at zero.  From the outside in: the cast [512, 256] → [1, 512, 256] reads (r, p); the format
    change is the identity; the maximum and the sum are entrywise; the zero splat reads the zero word everywhere; the
    bias [1, 256], cast to its own shape and repeated over the rows, reads (0, p); the product into the zero accumulator is
    the sum over d of the left operand at (r, d) times the right operand at (p, d); the left operand is the block with its
    unit axis dropped, so (r, d) reads (0, r, d); the zero word is 0. -/
theorem k0_pay1_apply (v0 : Vec Ideal S1x512x1024 .f32) (v2 : Vec Ideal S256x1024 .f32) (v3 : Vec Ideal S1x256 .f32)
    (r : Fin 512) (p : Fin 256) :
    k0_pay1 (F := Ideal) v0 v2 v3 (ix3 (0 : Fin 1) r p)
      = max ((∑ d : Fin 1024, v0 (ix3 (0 : Fin 1) r d) * v2 (ix2 p d)) + v3 (ix2 (0 : Fin 1) p)) 0 := by
  unfold k0_pay1
  rw [shapeCast_ab_1ab_apply, truncf_apply, maximumf_apply, addf_apply, broadcast_apply, broadcastTo_1b_ab_apply,
    shapeCast_self, dot0_eq]
  rw [Cert.RowsDot.kdotT_apply]
  simp only [truncf_apply, shapeCast_1ab_ab_apply]
  exact congrArg (max _) Ideal.ofBits_zero_f32

/-- THE SCORES AT (0, i, j): row i of the block against row j of the batch element's rows, summed over the 256 features,
    times the scale, plus the offset.  From the outside in: the cast [512, 2048] → [1, 512, 2048] reads (i, j); the sum and
    the product are entrywise; each splat reads its scalar, the (0, 0) entry of its 1 x 1 array; the product into the zero
    accumulator is the sum over p of the left operand at (i, p) times the right operand at (j, p); both operands are
    blocks with the unit axis dropped, so (i, p) reads (0, i, p) and (j, p) reads (0, j, p). -/
theorem k1_pay1_apply (v0 : Vec Ideal S1x512x256 .bf16) (v2 : Vec Ideal S1x2048x256 .bf16) (v5 v7 : Vec Ideal S1x1 .f32)
    (i : Fin 512) (j : Fin 2048) :
    k1_pay1 (F := Ideal) v0 v2 v5 v7 (ix3 (0 : Fin 1) i j)
      = (∑ p : Fin 256, v0 (ix3 (0 : Fin 1) i p) * v2 (ix3 (0 : Fin 1) j p)) * v5 (ix2 (0 : Fin 1) (0 : Fin 1))
        + v7 (ix2 (0 : Fin 1) (0 : Fin 1)) := by
  unfold k1_pay1
  rw [shapeCast_ab_1ab_apply, addf_apply, mulf_apply, broadcast_apply, broadcast_apply, extractAt_00, extractAt_00,
    dot1_eq]
  rw [Cert.RowsDot.kdotT_apply]
  simp only [shapeCast_1ab_ab_apply]

end Cert.KernelIdeal.Payload

end
-- ==== Proof.Spec.lean ====
/-
  The contact-map head as two functions of the argument arrays, index by index, over the extended reals.

  Projection: for batch `b`, position `s` and feature `p`,
      h[b,s,p] = max (∑ d, x[b,s,d] · w[p,d] + bias[p]) 0
  — a row of the hidden states against a row of the projection weight (the weight is used transposed), the bias added
  after the sum, then the rectifier.
  Contact map: for batch `b` and positions `i`, `j`,
      out[b,i,j] = (∑ p, h[b,i,p] · h[b,j,p]) · cw[0,0] + cb[0]
  — the inner product of two projected rows of one batch, then one scalar affine map.
  Both programs compute exactly these two terms, in this order of operations, so no law of arithmetic beyond the
  definitions joins them; in particular nothing here needs the inputs finite.
-/
import Idealize.ShloMosaic.PureOps.Ideal
import Idealize.ShloMosaic.Lib.ValueIdx

noncomputable section

open scoped BigOperators

namespace Cert.ContactSpec

open Idealize.ShloMosaic Idealize.ShloMosaic.ValueIdx

/-- The hidden states, [4, 2048, 1024]. -/
abbrev SX : Shape := ⟨3, ![4, 2048, 1024]⟩
/-- The projection weight, [256, 1024]: one row per output feature. -/
abbrev SW : Shape := ⟨2, ![256, 1024]⟩
/-- The projection bias, [256]. -/
abbrev SB : Shape := ⟨1, ![256]⟩
/-- The projected rows, [4, 2048, 256]. -/
abbrev SH : Shape := ⟨3, ![4, 2048, 256]⟩
/-- The classifier's weight, [1, 1], and bias, [1]. -/
abbrev SCW : Shape := ⟨2, ![1, 1]⟩
abbrev SCB : Shape := ⟨1, ![1]⟩
/-- The contact map, [4, 2048, 2048]. -/
abbrev SO : Shape := ⟨3, ![4, 2048, 2048]⟩

/-- One projected entry from its coordinates: the row `x[b,s,·]` against the weight row `w[p,·]`, plus `bias[p]`,
    rectified. -/
def projAt (x : SX.Idx → EReal) (w : SW.Idx → EReal) (bias : SB.Idx → EReal) (b : Fin 4) (s : Fin 2048) (p : Fin 256) : EReal :=
  max ((∑ d : Fin 1024, x (ix3 b s d) * w (ix2 p d)) + bias (ix1 p)) 0

/-- The projected rows as an array. -/
def proj (x : SX.Idx → EReal) (w : SW.Idx → EReal) (bias : SB.Idx → EReal) : SH.Idx → EReal :=
  fun i => projAt x w bias (i 0) (i 1) (i 2)

theorem proj_apply (x : SX.Idx → EReal) (w : SW.Idx → EReal) (bias : SB.Idx → EReal) (b : Fin 4) (s : Fin 2048) (p : Fin 256) :
    proj x w bias (ix3 b s p) = projAt x w bias b s p := rfl

/-- One entry of the contact map from its coordinates: the inner product of rows `i` and `j` of batch `b` of an array
    `h` of projected rows, times the classifier's weight, plus its bias. -/
def contactAt (h : SH.Idx → EReal) (cw : SCW.Idx → EReal) (cb : SCB.Idx → EReal) (b : Fin 4) (i j : Fin 2048) : EReal :=
  (∑ p : Fin 256, h (ix3 b i p) * h (ix3 b j p)) * cw (ix2 0 0) + cb (ix1 0)

/-- The contact map as an array. -/
def contact (h : SH.Idx → EReal) (cw : SCW.Idx → EReal) (cb : SCB.Idx → EReal) : SO.Idx → EReal :=
  fun i => contactAt h cw cb (i 0) (i 1) (i 2)

theorem contact_apply (h : SH.Idx → EReal) (cw : SCW.Idx → EReal) (cb : SCB.Idx → EReal) (b : Fin 4) (i j : Fin 2048) :
    contact h cw cb (ix3 b i j) = contactAt h cw cb b i j := rfl

/-- The whole head: the contact map of the projected rows. -/
def head (x : SX.Idx → EReal) (w : SW.Idx → EReal) (bias : SB.Idx → EReal) (cw : SCW.Idx → EReal) (cb : SCB.Idx → EReal) :
    SO.Idx → EReal :=
  contact (proj x w bias) cw cb

end Cert.ContactSpec

end
-- ==== Proof.KI.Value0.lean ====
/-
  THE PROJECTION KERNEL, FROM BLOCKS TO THE WHOLE ARRAY, over the extended reals.

  The 4 × 4 grid's point with block index (b, s, 0) is handed rows 512·s … 512·s + 511 of batch b of the hidden states,
  the whole weight and the whole bias row, and writes back the [1, 512, 256] block (b, s, 0) of the projected rows. So
  entry (b, r', p) of the projected rows is written by the point whose block index is (b, r' / 512, 0), at the block
  coordinate (0, r' % 512, p); there the body's value is
      max ( ∑ d, x[b, 512·s + r, d] · w[p, d] + bias[0, p] , 0 )        with 512·s + r = r',
  which is the projected entry (b, r', p) of the arrays the kernel is entered with. In order:
  • the relations between the four windows' block indices, decided once over the sixteen points (the hidden-state
    window moves with the output window on the batch and row axes; every other block index is 0), and every
    (batch, row-block) pair is some point's;
  • each input block read at an index is its array read at block index × block size + the coordinate in the block;
  • one entry of the body's value, from blocks that agree with the arrays where that entry reads them;
  • so what a point writes back is its block of the one whole-array function, the projected rows;
  • the blocks cover the array, so the array ends holding that function.
-/
import proofs.«177731_j83846351553194_2_alg».proof.Proof.KI.Body0
import proofs.«177731_j83846351553194_2_alg».proof.Proof.Payload
import proofs.«177731_j83846351553194_2_alg».proof.Proof.Spec
import Idealize.ShloMosaic.Lib.Pipeline.Value
import Idealize.ShloMosaic.Lib.ValueIdx

noncomputable section

open scoped BigOperators

namespace Cert.KernelIdeal.Val0

open Cert.KernelIdeal Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- Zero offsets on three axes, and on two, however the zeros are spelt. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The projected rows of the arrays the kernel is entered with: the hidden states, the weight, and the bias row read as
    a vector. -/
abbrev target (c : Dev nD) : S4x2048x256.Idx → EReal :=
  Cert.ContactSpec.proj (V c main_arg0) (V c main_arg1) (fun i => V c main_v0 (ix2 (0 : Fin 1) (i 0)))

/-- The windows' block indices at every point: the hidden-state block moves with the output block on the batch and row
    axes, every other block index is 0, and the output's batch and row-block indices are at most 3. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 3 :=
  (by decide +kernel : ∀ t : Fin grid0.N, _)

/-- Every (batch, row-block) pair is the output block index of some point. -/
theorem index_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- The hidden-state block at point t, read at (0, r, d): the array at (b, r', d), where b is the point's block index on
    the batch axis and r' is its block index on the row axis times 512 plus r. -/
theorem block0_apply (c : Dev nD) (t : Fin cfg0.N) (r : Fin 512) (d : Fin 1024) (b : Fin 4) (r' : Fin 2048)
    (hb : b.val = win0_0.index t (0 : Fin 3)) (hr : r'.val = win0_0.index t (1 : Fin 3) * 512 + r.val)
    (h2 : win0_0.index t (2 : Fin 3) = 0) :
    (iblk0 V c 0 t : Vec Ideal S1x512x1024 .f32) (ix3 (0 : Fin 1) r d)
      = (V c main_arg0 : S4x2048x1024.Idx → EReal) (ix3 b r' d) := by
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = r'.val; omega
  | ⟨2, _⟩ => show win0_0.index t (2 : Fin 3) * 1024 + 1 * d.val = d.val; omega

/-- The weight block at every point is the whole weight. -/
theorem block1_apply (c : Dev nD) (t : Fin cfg0.N) (q : Fin 256) (d : Fin 1024)
    (h0 : win0_1.index t (0 : Fin 2) = 0) (h1 : win0_1.index t (1 : Fin 2) = 0) :
    (iblk0 V c 1 t : Vec Ideal S256x1024 .f32) (ix2 q d) = (V c main_arg1 : S256x1024.Idx → EReal) (ix2 q d) := by
  unfold iblk0
  rw [View.read_apply]
  show V c main_arg1 _ = V c main_arg1 _
  congr 1
  funext a
  apply Fin.ext
  match a with
  | ⟨0, _⟩ => show win0_1.index t (0 : Fin 2) * 256 + 1 * q.val = q.val; omega
  | ⟨1, _⟩ => show win0_1.index t (1 : Fin 2) * 1024 + 1 * d.val = d.val; omega

/-- The bias block at every point is the whole bias row. -/
theorem block2_apply (c : Dev nD) (t : Fin cfg0.N) (u : Fin 1) (q : Fin 256)
    (h0 : win0_2.index t (0 : Fin 2) = 0) (h1 : win0_2.index t (1 : Fin 2) = 0) :
    (iblk0 V c 2 t : Vec Ideal S1x256 .f32) (ix2 u q) = (V c main_v0 : S1x256.Idx → EReal) (ix2 u q) := by
  unfold iblk0
  rw [View.read_apply]
  show V c main_v0 _ = V c main_v0 _
  congr 1
  funext a
  apply Fin.ext
  match a with
  | ⟨0, _⟩ => show win0_2.index t (0 : Fin 2) * 1 + 1 * u.val = u.val; omega
  | ⟨1, _⟩ => show win0_2.index t (1 : Fin 2) * 256 + 1 * q.val = q.val; omega

/-- One entry: if the three blocks agree with three arrays X, W, B where the body reads them for the entry (r, p) —
    row r of the block is row r' of batch b of X, row p of the weight block is row p of W, the bias block at p is B at
    p —, the body's value at (0, r, p) is the projected entry (b, r', p) of X, W, B. -/
theorem point_eq (x0 : Vec Ideal S1x512x1024 .f32) (x1 : Vec Ideal S256x1024 .f32) (x2 : Vec Ideal S1x256 .f32)
    (X : S4x2048x1024.Idx → EReal) (W : S256x1024.Idx → EReal) (B : S1x256.Idx → EReal)
    (b : Fin 4) (r' : Fin 2048) (r : Fin 512) (p : Fin 256)
    (h0 : ∀ d : Fin 1024, x0 (ix3 (0 : Fin 1) r d) = X (ix3 b r' d))
    (h1 : ∀ d : Fin 1024, x1 (ix2 p d) = W (ix2 p d))
    (h2 : x2 (ix2 (0 : Fin 1) p) = B (ix2 (0 : Fin 1) p)) :
    Gen.k0_pay1 (F := Ideal) x0 x1 x2 (ix3 (0 : Fin 1) r p)
      = Cert.ContactSpec.proj X W (fun i => B (ix2 (0 : Fin 1) (i 0))) (ix3 b r' p) := by
  rw [Payload.k0_pay1_apply, Cert.ContactSpec.proj_apply]
  unfold Cert.ContactSpec.projAt
  simp only [h0, h1, h2]

/-- WHAT POINT t WRITES BACK is block t of the projected rows of the arrays the kernel is entered with: the block's
    index (0, r, p) sits in the array at (b, 512·s + r, p) for the point's block index (b, s, 0), and the three input
    blocks agree with their arrays where that entry reads them. -/
theorem flushed_eq (c : Dev nD) (t : Fin cfg0.N) :
    (dat0 (F := Ideal) V c).flushed 3 t = ((cfg0.win 3).blk t).view.read (Elt Ideal) (target V c) := by
  show (cfg0.win 3).cut (grid0.coords t) ((dat0 (F := Ideal) V c).after 3 t) = _
  rw [after0_3]
  unfold out0_3
  rw [View.canon_unit_zero zeros3]
  simp only [View.ld_unit_zero (S := S1x512x1024) zeros3, View.ld_unit_zero (S := S256x1024) zeros2, View.ld_unit_zero (S := S1x256) zeros2]
  funext y
  have hy0 : (y 0).val < 1 := (y 0).isLt
  have hy1 : (y 1).val < 512 := (y 1).isLt
  have hy2 : (y 2).val < 256 := (y 2).isLt
  obtain ⟨e0, e1, e2, e3, e4, e5, e6, e7, e8, e9⟩ := index_facts t
  have hb : win0_3.index t (0 : Fin 3) < 4 := by omega
  have hr : win0_3.index t (1 : Fin 3) * 512 + (y 1).val < 2048 := by omega
  have ey : (cfg0.win 3).xinj (grid0.coords t) y = ix3 (0 : Fin 1) (⟨(y 1).val, hy1⟩ : Fin 512) (⟨(y 2).val, hy2⟩ : Fin 256) :=
    funext fun a => Fin.ext (by
      match a with
      | ⟨0, _⟩ => show (y 0).val = 0; omega
      | ⟨1, _⟩ => rfl
      | ⟨2, _⟩ => rfl)
  have ei : ((cfg0.win 3).blk t).view.emb y
      = ix3 (⟨win0_3.index t (0 : Fin 3), hb⟩ : Fin 4) (⟨win0_3.index t (1 : Fin 3) * 512 + (y 1).val, hr⟩ : Fin 2048) (⟨(y 2).val, hy2⟩ : Fin 256) :=
    funext fun a => Fin.ext (by
      match a with
      | ⟨0, _⟩ => show win0_3.index t (0 : Fin 3) * 1 + 1 * (y 0).val = win0_3.index t (0 : Fin 3); omega
      | ⟨1, _⟩ => show win0_3.index t (1 : Fin 3) * 512 + 1 * (y 1).val = win0_3.index t (1 : Fin 3) * 512 + (y 1).val; omega
      | ⟨2, _⟩ => show win0_3.index t (2 : Fin 3) * 256 + 1 * (y 2).val = (y 2).val; omega)
  show Gen.k0_pay1 (F := Ideal) (iblk0 V c 0 t) (iblk0 V c 1 t) (iblk0 V c 2 t) ((cfg0.win 3).xinj (grid0.coords t) y)
      = target V c (((cfg0.win 3).blk t).view.emb y)
  rw [ey, ei]
  exact point_eq (iblk0 V c 0 t) (iblk0 V c 1 t) (iblk0 V c 2 t) (V c main_arg0) (V c main_arg1) (V c main_v0)
    ⟨win0_3.index t (0 : Fin 3), hb⟩ ⟨win0_3.index t (1 : Fin 3) * 512 + (y 1).val, hr⟩ ⟨(y 1).val, hy1⟩ ⟨(y 2).val, hy2⟩
    (fun d => block0_apply V c t ⟨(y 1).val, hy1⟩ d ⟨win0_3.index t (0 : Fin 3), hb⟩ ⟨win0_3.index t (1 : Fin 3) * 512 + (y 1).val, hr⟩
      e0.symm (by show win0_3.index t (1 : Fin 3) * 512 + (y 1).val = win0_0.index t (1 : Fin 3) * 512 + (y 1).val; rw [e1]) e2)
    (fun d => block1_apply V c t ⟨(y 2).val, hy2⟩ d e4 e5)
    (block2_apply V c t (0 : Fin 1) ⟨(y 2).val, hy2⟩ e6 e7)

/-- An index of the array is in point t's block iff each coordinate is in the block's range on its axis. -/
theorem mem_block (t : Fin cfg0.N) (i : S4x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v1).slice (win0_3.rect t)).set ↔ _
  rw [View.set_slice_whole, Rect.mem_set_unit]
  exact Iff.rfl

/-- Every index of the array is in some point's block: batch b, row r' is covered by the point whose block index is
    (b, r' / 512, 0). -/
theorem covered (i : S4x2048x256.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 256 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, Gen.flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- THE ARRAY after the kernel: the projected rows of the arrays it was entered with. -/
theorem final0 (c : Dev nD) :
    (dat0 (F := Ideal) V c).arrAt 3 cfg0.N
      = Cert.ContactSpec.proj (V c main_arg0) (V c main_arg1) (fun i => V c main_v0 (ix2 (0 : Fin 1) (i 0))) :=
  (dat0 (F := Ideal) V c).arrAt_eq_of_cover 3 (target V c) (fun t _ => flushed_eq V c t) (covered)

end Cert.KernelIdeal.Val0

end
-- ==== Proof.KI.Value1.lean ====
/-
  The score kernel, from its blocks to the whole contact map, over the extended reals.

  The grid has 4 × 4 points. At point (b, i) the kernel reads rows 512·i … 512·i + 511 of batch b of the projected rows
  h (block index (b, i, 0) in blocks of [1, 512, 256]), all 2048 rows of batch b of the same array (block index (b, 0, 0)
  in blocks of [1, 2048, 256]), the two [1, 1] arrays of the classifier whole, and writes the [1, 512, 2048] block of the
  contact map at block index (b, i, 0).  A block's entry y sits in its array, on each axis, at block index × block size +
  y's coordinate.  So the entry (0, r, j) that point (b, i) stores, namely
      (∑ p, q (0, r, p) · k (0, j, p)) · s + t        (q the block of 512 rows, k the batch's rows, s and t the scalars),
  is   (∑ p, h (b, 512·i + r, p) · h (b, j, p)) · cw (0, 0) + cb (0, 0),
  the specification's contact map of h at (b, 512·i + r, j): what each point writes back is its block of ONE function
  of the arrays.  Entry (b', i', j') of the map lies in the block of the point with block index (b', i' / 512, 0), and
  every such block index is some point's, so the blocks cover the map and the array ends holding that function.
-/
import proofs.«177731_j83846351553194_2_alg».proof.Proof.KI.Body1
import proofs.«177731_j83846351553194_2_alg».proof.Proof.Payload
import proofs.«177731_j83846351553194_2_alg».proof.Proof.Spec
import Idealize.ShloMosaic.Lib.Pipeline.Value
import Idealize.ShloMosaic.Lib.ValueIdx
import Idealize.ShloMosaic.Lib.Decide

noncomputable section

open scoped BigOperators

namespace Cert.KernelIdeal.Val1

open Cert.KernelIdeal Cert.KernelIdeal.Fr Idealize.ShloMosaic Idealize.ShloMosaic.ValueIdx Idealize.ShloMosaic.TcCoe
open Idealize.ShloMosaic.Pipeline (Dat)

/-- The zero offsets of a whole-block access of a rank-3 block. -/
theorem zero3 : (![0, 0, 0] : Fin 3 → Nat) = fun _ => 0 := funext fun a => by fin_cases a <;> rfl
/-- The zero offsets of a whole-block access of a rank-2 block. -/
theorem zero2 : (![0, 0] : Fin 2 → Nat) = fun _ => 0 := funext fun a => by fin_cases a <;> rfl

/-- THE BLOCK INDICES AT EVERY POINT, decided over the 16 points: the block of 512 rows moves with the output block on the
    batch and row axes and sits at 0 on the feature axis; the batch block moves with it on the batch axis only; the two
    scalar arrays are one block each; the output's block index is (b, i, 0) with b, i ≤ 3. -/
theorem index_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) ≤ 3 ∧ win1_4.index t (1 : Fin 3) ≤ 3 ∧ win1_4.index t (2 : Fin 3) = 0 :=
  (by decide +kernel : ∀ t : Fin grid1.N, _)

/-- Every block index (b, i, 0) with b, i < 4 is some point's output block index. -/
theorem index_onto : ∀ (q0 q1 : Fin 4), ∃ t : Fin cfg1.N, win1_4.index t = ![q0.val, q1.val, 0] :=
  (by decide +kernel : ∀ (q0 q1 : Fin 4), ∃ t : Fin grid1.N, win1_4.index t = ![q0.val, q1.val, 0])

variable (V : (c : Dev nD) → (b : Ref sig .tc) → Buf (Elt Ideal) ((c : Thread nD τ).loc b))

/-! ## Each input block, read where it sits in its array -/

/-- The block of 512 projected rows at point t, at y, is the array of projected rows at the index k whose coordinate on
    each axis is the block index times the block size plus y's. -/
theorem rows_block_apply (c : Dev nD) (t : Fin cfg1.N) (y : S1x512x256.Idx) (k : S4x2048x256.Idx)
    (hk0 : (k 0).val = win1_0.index t (0 : Fin 3) + (y 0).val) (hk1 : (k 1).val = win1_0.index t (1 : Fin 3) * 512 + (y 1).val)
    (hk2 : (k 2).val = win1_0.index t (2 : Fin 3) * 256 + (y 2).val) :
    (iblk1 (F := Ideal) V c 0 t : Vec Ideal S1x512x256 .bf16) y = (V c main_v1 : S4x2048x256.Idx → EReal) k := by
  unfold iblk1
  rw [View.read_apply]
  show V c main_v1 _ = V c main_v1 _
  congr 1
  funext a
  apply Fin.ext
  match a with
  | ⟨0, _⟩ => show win1_0.index t (0 : Fin 3) * 1 + 1 * (y 0).val = (k 0).val; omega
  | ⟨1, _⟩ => show win1_0.index t (1 : Fin 3) * 512 + 1 * (y 1).val = (k 1).val; omega
  | ⟨2, _⟩ => show win1_0.index t (2 : Fin 3) * 256 + 1 * (y 2).val = (k 2).val; omega

/-- The batch's block of 2048 projected rows at point t, read the same way (it is cut from the same array). -/
theorem batch_block_apply (c : Dev nD) (t : Fin cfg1.N) (y : S1x2048x256.Idx) (k : S4x2048x256.Idx)
    (hk0 : (k 0).val = win1_1.index t (0 : Fin 3) + (y 0).val) (hk1 : (k 1).val = win1_1.index t (1 : Fin 3) * 2048 + (y 1).val)
    (hk2 : (k 2).val = win1_1.index t (2 : Fin 3) * 256 + (y 2).val) :
    (iblk1 (F := Ideal) V c 1 t : Vec Ideal S1x2048x256 .bf16) y = (V c main_v1 : S4x2048x256.Idx → EReal) k := by
  unfold iblk1
  rw [View.read_apply]
  show V c main_v1 _ = V c main_v1 _
  congr 1
  funext a
  apply Fin.ext
  match a with
  | ⟨0, _⟩ => show win1_1.index t (0 : Fin 3) * 1 + 1 * (y 0).val = (k 0).val; omega
  | ⟨1, _⟩ => show win1_1.index t (1 : Fin 3) * 2048 + 1 * (y 1).val = (k 1).val; omega
  | ⟨2, _⟩ => show win1_1.index t (2 : Fin 3) * 256 + 1 * (y 2).val = (k 2).val; omega

/-- The classifier's weight block at point t, read the same way. -/
theorem weight_block_apply (c : Dev nD) (t : Fin cfg1.N) (y : S1x1.Idx) (k : S1x1.Idx)
    (hk0 : (k 0).val = win1_2.index t (0 : Fin 2) + (y 0).val) (hk1 : (k 1).val = win1_2.index t (1 : Fin 2) + (y 1).val) :
    (iblk1 (F := Ideal) V c 2 t : Vec Ideal S1x1 .f32) y = (V c main_arg3 : S1x1.Idx → EReal) k := by
  unfold iblk1
  rw [View.read_apply]
  show V c main_arg3 _ = V c main_arg3 _
  congr 1
  funext a
  apply Fin.ext
  match a with
  | ⟨0, _⟩ => show win1_2.index t (0 : Fin 2) * 1 + 1 * (y 0).val = (k 0).val; omega
  | ⟨1, _⟩ => show win1_2.index t (1 : Fin 2) * 1 + 1 * (y 1).val = (k 1).val; omega

/-- The classifier's bias block at point t, read the same way. -/
theorem bias_block_apply (c : Dev nD) (t : Fin cfg1.N) (y : S1x1.Idx) (k : S1x1.Idx)
    (hk0 : (k 0).val = win1_3.index t (0 : Fin 2) + (y 0).val) (hk1 : (k 1).val = win1_3.index t (1 : Fin 2) + (y 1).val) :
    (iblk1 (F := Ideal) V c 3 t : Vec Ideal S1x1 .f32) y = (V c main_v2 : S1x1.Idx → EReal) k := by
  unfold iblk1
  rw [View.read_apply]
  show V c main_v2 _ = V c main_v2 _
  congr 1
  funext a
  apply Fin.ext
  match a with
  | ⟨0, _⟩ => show win1_3.index t (0 : Fin 2) * 1 + 1 * (y 0).val = (k 0).val; omega
  | ⟨1, _⟩ => show win1_3.index t (1 : Fin 2) * 1 + 1 * (y 1).val = (k 1).val; omega

/-! ## The output's blocks cover the contact map -/

/-- An index of the contact map is in point t's block iff each coordinate is in the block's range on its axis. -/
theorem mem_block (t : Fin cfg1.N) (i : S4x2048x2048.Idx) :
    i ∈ ((cfg1.win 4).blk t).view.set ↔ ∀ a : Fin 3, win1_4.index t a * S1x512x2048.size a ≤ (i a).val ∧ (i a).val < win1_4.index t a * S1x512x2048.size a + S1x512x2048.size a := by
  show i ∈ ((View.whole main_v3).slice (win1_4.rect t)).set ↔ _
  rw [View.set_slice_whole, Rect.mem_set_unit]
  exact Iff.rfl

/-- Every entry (b', i', j') of the contact map is in some point's block: the point whose output block index is
    (b', i' / 512, 0). -/
theorem covered (i : S4x2048x2048.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, Gen.flush1_4 t, ?_⟩
  rw [mem_block]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 2048 ≤ (i 2).val ∧ (i 2).val < win1_4.index t (2 : Fin 3) * 2048 + 2048; omega

/-! ## What a point writes back -/

/-- ONE ENTRY OF ONE POINT'S STORE. If the block of 512 rows holds rows q·512 … q·512 + 511 of batch b of an array h of
    projected rows, the batch block holds all 2048 rows of batch b, and the two scalar blocks hold the (0, 0) entries of
    cw and cb, then the stored value at (0, r, j) is the contact map of h, cw, cb at (b, q·512 + r, j): the inner
    product of rows q·512 + r and j of batch b, times cw, plus cb. -/
theorem point_entry (h : S4x2048x256.Idx → EReal) (cw cb : S1x1.Idx → EReal)
    (x0 : Vec Ideal S1x512x256 .bf16) (x1 : Vec Ideal S1x2048x256 .bf16) (x2 x3 : Vec Ideal S1x1 .f32) (b q : Nat)
    (y : S1x512x2048.Idx) (k : S4x2048x2048.Idx)
    (hk0 : (k 0).val = b + (y 0).val) (hk1 : (k 1).val = q * 512 + (y 1).val) (hk2 : (k 2).val = (y 2).val)
    (H0 : ∀ (y' : S1x512x256.Idx) (k' : S4x2048x256.Idx), (k' 0).val = b + (y' 0).val → (k' 1).val = q * 512 + (y' 1).val →
      (k' 2).val = (y' 2).val → x0 y' = h k')
    (H1 : ∀ (y' : S1x2048x256.Idx) (k' : S4x2048x256.Idx), (k' 0).val = b + (y' 0).val → (k' 1).val = (y' 1).val →
      (k' 2).val = (y' 2).val → x1 y' = h k')
    (H2 : x2 (ix2 (0 : Fin 1) (0 : Fin 1)) = cw (ix2 (0 : Fin 1) (0 : Fin 1)))
    (H3 : x3 (ix2 (0 : Fin 1) (0 : Fin 1)) = cb (ix2 (0 : Fin 1) (0 : Fin 1))) :
    Gen.k1_pay1 (F := Ideal) x0 x1 x2 x3 y
      = Cert.ContactSpec.contact h cw (fun _ => cb (ix2 (0 : Fin 1) (0 : Fin 1))) k := by
  obtain ⟨u, r, j, rfl⟩ : ∃ (u : Fin 1) (r : Fin 512) (j : Fin 2048), y = ix3 u r j := ⟨y 0, y 1, y 2, eq_ix3 y⟩
  obtain ⟨b', i', j', rfl⟩ : ∃ (b' : Fin 4) (i' j' : Fin 2048), k = ix3 b' i' j' := ⟨k 0, k 1, k 2, eq_ix3 k⟩
  obtain rfl : u = 0 := Subsingleton.elim _ _
  obtain rfl : j' = j := Fin.ext hk2
  rw [Payload.k1_pay1_apply, Cert.ContactSpec.contact_apply, H2, H3]
  unfold Cert.ContactSpec.contactAt
  refine congrArg (fun s => s * cw (ix2 (0 : Fin 1) (0 : Fin 1)) + cb (ix2 (0 : Fin 1) (0 : Fin 1)))
    (Finset.sum_congr rfl fun p _ => ?_)
  rw [H0 (ix3 (0 : Fin 1) r p) (ix3 b' i' p) hk0 hk1 rfl, H1 (ix3 (0 : Fin 1) j' p) (ix3 b' j' p) hk0 rfl rfl]

/-- The contact map the kernel's arrays determine: of the projected rows main_v1, the classifier's weight main_arg3 and
    the (0, 0) entry of the [1, 1] bias array main_v2. -/
abbrev target (c : Dev nD) : S4x2048x2048.Idx → EReal :=
  Cert.ContactSpec.contact (V c main_v1) (V c main_arg3) (fun _ => V c main_v2 (ix2 (0 : Fin 1) (0 : Fin 1)))

/-- WHAT POINT t WRITES BACK is block t of the contact map. -/
theorem flushed_eq (c : Dev nD) (t : Fin cfg1.N) :
    (dat1 (F := Ideal) V c).flushed 4 t = ((cfg1.win 4).blk t).view.read (Elt Ideal) (target V c) := by
  show (cfg1.win 4).cut (grid1.coords t) ((dat1 (F := Ideal) V c).after 4 t) = _
  rw [after1_4]
  unfold out1_4
  rw [View.canon_unit_zero zero3]
  simp only [View.ld_unit_zero (S := S1x512x256) zero3, View.ld_unit_zero (S := S1x2048x256) zero3, View.ld_unit_zero (S := S1x1) zero2]
  obtain ⟨e0, e1, e2, e3, e4, e5, e6, e7, e8, e9, l0, l1, e12⟩ := index_facts t
  funext y
  show Gen.k1_pay1 (F := Ideal) (iblk1 V c 0 t) (iblk1 V c 1 t) (iblk1 V c 2 t) (iblk1 V c 3 t) y = target V c (((cfg1.win 4).blk t).view.emb y)
  refine point_entry (V c main_v1) (V c main_arg3) (V c main_v2) _ _ _ _ (win1_4.index t (0 : Fin 3)) (win1_4.index t (1 : Fin 3)) y _ ?_ ?_ ?_ ?_ ?_ ?_ ?_
  · show win1_4.index t (0 : Fin 3) * 1 + 1 * (y 0).val = _; omega
  · show win1_4.index t (1 : Fin 3) * 512 + 1 * (y 1).val = _; omega
  · show win1_4.index t (2 : Fin 3) * 2048 + 1 * (y 2).val = _; omega
  · exact fun y' k' h0 h1 h2 => rows_block_apply V c t y' k' (by omega) (by omega) (by omega)
  · exact fun y' k' h0 h1 h2 => batch_block_apply V c t y' k' (by omega) (by omega) (by omega)
  · exact weight_block_apply V c t _ _ (by rw [e6]; rfl) (by rw [e7]; rfl)
  · exact bias_block_apply V c t _ _ (by rw [e8]; rfl) (by rw [e9]; rfl)

/-- THE ARRAY AFTER THE LAST POINT is the contact map. -/
theorem final1 (V : (c : Dev nD) → (b : Ref sig .tc) → Buf (Elt Ideal) ((c : Thread nD τ).loc b)) (c : Dev nD) :
    (dat1 (F := Ideal) V c).arrAt 4 cfg1.N = Cert.ContactSpec.contact (V c main_v1) (V c main_arg3) (fun _ => V c main_v2 (ix2 (0 : Fin 1) (0 : Fin 1))) :=
  (dat1 (F := Ideal) V c).arrAt_eq_of_cover 4 (target V c) (fun t _ => flushed_eq V c t) covered

end Cert.KernelIdeal.Val1

end
-- ==== Proof.KI.Result.lean ====
/-
  The idealized kernel program's result buffer is the specification's head of the five launch arrays.

  The contact map the score kernel leaves is `contact` of the array of projected rows it was entered with, the classifier's
  weight, and the one entry of the classifier's bias reshaped to [1, 1]. The array of projected rows it was entered with is
  what the projection kernel left: `proj` of the hidden states, the weight, and the bias reshaped to a row [1, 256]. A
  reshape that adds a leading axis of extent one reads, at (0, i), the operand at i. So the result is
  `contact (proj x w bias) cw cb`.
-/
import proofs.«177731_j83846351553194_2_alg».proof.Proof.KI.Ends
import proofs.«177731_j83846351553194_2_alg».proof.Proof.KI.Value0
import proofs.«177731_j83846351553194_2_alg».proof.Proof.KI.Value1
import proofs.«177731_j83846351553194_2_alg».proof.Proof.Spec
import Idealize.ShloMosaic.Lib.ValueLayout
import Idealize.ShloMosaic.Lib.StableHlo.Run

set_option maxRecDepth 16384

noncomputable section

namespace Cert.KernelIdeal.Res

open Idealize.ShloMosaic Idealize.ShloMosaic.TcCoe Idealize.ShloMosaic.ValueIdx
open Idealize.SL.Sem
open Cert.KernelIdeal Cert.KernelIdeal.Fr

variable (m : (ℓ : Loc nD τ sig) → Buf (Elt Ideal) ℓ)

/-- The bias as the projection kernel finds it: the launch bias with a leading axis of extent one. -/
theorem V1_v0 (c : Dev nD) :
    (V1 m c main_v0 : S1x256.Idx → EReal) = shapeCast S1x256 (m ((c : Thread nD τ).loc main_arg2)) Gen.shapeCasts_S256_S1x256 := by
  show StableHlo.after Gen.hostOps0 (W0 m c) (Proc.devRef .tc main_v0) = _
  after_results; rfl

theorem V1_v0_apply (c : Dev nD) (p : Fin 256) :
    (V1 m c main_v0 : S1x256.Idx → EReal) (ix2 (0 : Fin 1) p) = m ((c : Thread nD τ).loc main_arg2) (ix1 p) := by
  rw [V1_v0]; exact shapeCast_a_1a_apply _ _ 0 p

/-- The classifier's bias as the score kernel finds it: the launch bias with a leading axis of extent one. -/
theorem V3_v2 (c : Dev nD) :
    (V3 m c main_v2 : S1x1.Idx → EReal) = shapeCast S1x1 (W2 m c (Proc.devRef .tc main_arg4) : S1.Idx → EReal) Gen.shapeCasts_S1_S1x1 := by
  show StableHlo.after Gen.hostOps1 (W2 m c) (Proc.devRef .tc main_v2) = _
  after_results; rfl

theorem V3_v2_apply (c : Dev nD) :
    (V3 m c main_v2 : S1x1.Idx → EReal) (ix2 (0 : Fin 1) (0 : Fin 1)) = m ((c : Thread nD τ).loc main_arg4) (ix1 (0 : Fin 1)) := by
  rw [V3_v2, shapeCast_a_1a_apply _ _ 0 0, W2_of_ne m c main_arg4 (by decide), W1_of_ne m c main_arg4 (by decide)]

/-- The array of projected rows the score kernel is entered with. -/
theorem V3_v1 (c : Dev nD) :
    (V3 m c main_v1 : S4x2048x256.Idx → EReal)
      = Cert.ContactSpec.proj (m ((c : Thread nD τ).loc main_arg0)) (m ((c : Thread nD τ).loc main_arg1)) (m ((c : Thread nD τ).loc main_arg2)) := by
  have h0 : V3 m c main_v1 = (dat0 (V1 m) c).arrAt 3 cfg0.N := (W3_of_ne m c main_v1 (by decide)).trans (W2_arr m c 3)
  rw [h0, Cert.KernelIdeal.Val0.final0 (V1 m) c]
  have ha0 : V1 m c main_arg0 = m ((c : Thread nD τ).loc main_arg0) := W1_of_ne m c main_arg0 (by decide)
  have ha1 : V1 m c main_arg1 = m ((c : Thread nD τ).loc main_arg1) := W1_of_ne m c main_arg1 (by decide)
  rw [ha0, ha1]
  refine congrArg (Cert.ContactSpec.proj _ _) (funext fun i => ?_)
  exact (V1_v0_apply m c (i 0)).trans (congrArg _ (eq_ix1 i).symm)

/-- The result buffer at the end of the run. -/
theorem result (c : Dev nD) :
    (W4 m c (Proc.devRef .tc main_v3) : S4x2048x2048.Idx → EReal)
      = Cert.ContactSpec.head (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_out, Cert.KernelIdeal.Val1.final1 (V3 m) c, V3_v1, V3_v2_apply]
  have ha3 : V3 m c main_arg3 = m ((c : Thread nD τ).loc main_arg3) :=
    (W3_of_ne m c main_arg3 (by decide)).trans ((W2_of_ne m c main_arg3 (by decide)).trans (W1_of_ne m c main_arg3 (by decide)))
  rw [ha3]
  rfl

/-- The idealized kernel's run with its result named: the specification's head of the launch arrays, the arguments
    unchanged. -/
theorem run_head (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Cert.ContactSpec.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (result m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_W4 m ρ)

end Cert.KernelIdeal.Res

end
-- ==== Proof.RefValue.lean ====
/-
  The reference program's result, read index by index, is the contact-map head of the specification.

  The program computes, in order: the product of the hidden states with the transposed projection weight (a sum over the
  1024 input features), the bias added along the last axis, the rectifier (a maximum against a zero splat), the
  batched product of the projected rows with themselves (for each batch, row i against row j, a sum over the 256
  projected features), the product with the classifier's one weight and the sum with its one bias (each read from its
  array by a reshape to a scalar and a splat). Read at an index (b, i, j) every stage is a function of the stages before
  it at the indices the specification names, so the two are equal entry by entry with no law of arithmetic used.
-/
import proofs.«177731_j83846351553194_2_alg».proof.Proof.Gen.ReferenceIdeal.Read
import proofs.«177731_j83846351553194_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.ContactSpec

/-! ## Where each stage reads its operands -/

/-- The projection's left operand at output entry (b, s, p) and summation index d: the hidden state (b, s, d). -/
theorem lidx_proj (b : Fin 4) (s : Fin 2048) (p : Fin 256) (d : Fin 1024) :
    lidx_main_v0 (ix3 b s p) d = ix3 b s d :=
  funext fun a => match a with | ⟨0, _⟩ => rfl | ⟨1, _⟩ => rfl | ⟨2, _⟩ => rfl

/-- The projection's right operand at output entry (b, s, p) and summation index d: the weight (p, d). -/
theorem ridx_proj (b : Fin 4) (s : Fin 2048) (p : Fin 256) (d : Fin 1024) :
    ridx_main_v0 (ix3 b s p) d = ix2 p d :=
  funext fun a => match a with | ⟨0, _⟩ => rfl | ⟨1, _⟩ => rfl

/-- The bias splat at entry (b, s, p) reads the bias at p (through the [1, 1, 256] intermediate). -/
theorem idx_bias (b : Fin 4) (s : Fin 2048) (p : Fin 256) :
    idx_main_v1 (idx_main_v2 (ix3 b s p)) = ix1 p :=
  funext fun a => match a with | ⟨0, _⟩ => rfl

/-- The batched product's left operand at output entry (b, i, j) and summation index p: the projected row entry (b, i, p). -/
theorem lidx_contact (b : Fin 4) (i j : Fin 2048) (p : Fin 256) :
    lidx_main_v5 (ix3 b i j) p = ix3 b i p :=
  funext fun a => match a with | ⟨0, _⟩ => rfl | ⟨1, _⟩ => rfl | ⟨2, _⟩ => rfl

/-- The batched product's right operand at output entry (b, i, j) and summation index p: the projected row entry (b, j, p). -/
theorem ridx_contact (b : Fin 4) (i j : Fin 2048) (p : Fin 256) :
    ridx_main_v5 (ix3 b i j) p = ix3 b j p :=
  funext fun a => match a with | ⟨0, _⟩ => rfl | ⟨1, _⟩ => rfl | ⟨2, _⟩ => rfl

/-- The scalar shape has one entry, at row-major position 0. -/
theorem scalar_pos (j : S_.Idx) : (S_.rowMajor j).val = 0 := by
  have h := (S_.rowMajor j).isLt
  have h1 : S_.numel = 1 := by decide
  omega

/-- The [1, 1] array reshaped to a scalar holds its entry (0, 0). -/
theorem scalar_of_S1x1 {α : Type} (x : S1x1.Idx → α) (j : S_.Idx) :
    shapeCast S_ x shapeCasts_S1x1_S_ j = x (ix2 (0 : Fin 1) (0 : Fin 1)) :=
  shapeCast_apply x _ j _ (by rw [scalar_pos, Shape.rowMajor_val_two]; rfl)

/-- The [1] array reshaped to a scalar holds its entry 0. -/
theorem scalar_of_S1 {α : Type} (x : S1.Idx → α) (j : S_.Idx) :
    shapeCast S_ x shapeCasts_S1_S_ j = x (ix1 (0 : Fin 1)) :=
  shapeCast_apply x _ j _ (by rw [scalar_pos, Shape.rowMajor_val_one]; rfl)

/-! ## The projected rows -/

/-- The rectified stage is the specification's array of projected rows. -/
theorem proj_eq (x : (⟨S4x2048x1024, .f32⟩ : BufTy).Contents (Elt Ideal)) (w : (⟨S256x1024, .f32⟩ : BufTy).Contents (Elt Ideal))
    (bias : (⟨S256, .f32⟩ : BufTy).Contents (Elt Ideal)) :
    val_main_v4 (F := Ideal) x w bias = proj x w bias := by
  funext i
  obtain ⟨b, s, p, rfl⟩ : ∃ (b : Fin 4) (s : Fin 2048) (p : Fin 256), i = ix3 b s p := ⟨i 0, i 1, i 2, eq_ix3 i⟩
  rw [proj_apply, val_main_v4_apply, val_main_v3_apply, val_main_v0_apply, val_main_v2_apply, val_main_v1_apply,
    val_main_call0_v0_apply, val_main_call0_cst_apply]
  simp only [lidx_proj, ridx_proj, idx_bias, Ideal.addf_def, Ideal.maximumf_def, Ideal.ofBits_def, Ideal.ofBits_zero_f32]
  rfl

/-! ## The contact map -/

/-- The reference run's result term is the specification's head of the five argument arrays. -/
theorem result_eq (x : (⟨S4x2048x1024, .f32⟩ : BufTy).Contents (Elt Ideal)) (w : (⟨S256x1024, .f32⟩ : BufTy).Contents (Elt Ideal))
    (bias : (⟨S256, .f32⟩ : BufTy).Contents (Elt Ideal)) (cw : (⟨S1x1, .f32⟩ : BufTy).Contents (Elt Ideal))
    (cb : (⟨S1, .f32⟩ : BufTy).Contents (Elt Ideal)) :
    val_main_v11 (F := Ideal) x w bias cw cb = head x w bias cw cb := by
  funext i
  obtain ⟨b, r, c, rfl⟩ : ∃ (b : Fin 4) (r c : Fin 2048), i = ix3 b r c := ⟨i 0, i 1, i 2, eq_ix3 i⟩
  unfold head
  rw [contact_apply, val_main_v11_apply, val_main_v8_apply, val_main_v5_apply, val_main_v7_apply, val_main_v10_apply,
    proj_eq]
  unfold val_main_v6 val_main_v9
  rw [scalar_of_S1x1, scalar_of_S1]
  simp only [lidx_contact, ridx_contact, Ideal.addf_def, Ideal.mulf_def]
  rfl

/-! ## The run -/

end Cert.ReferenceIdeal.RefValue

open Idealize.ShloMosaic Idealize.ShloMosaic.TcCoe Idealize.SL.Sem Cert.ReferenceIdeal in
/-- On every device, from any memory with zero counters, every weakly fair execution of the reference terminates with
    the result buffer at the specification's head of the five argument arrays as they stood at the launch, and the five
    arguments unchanged. -/
theorem Cert.ReferenceIdeal.RefValue.run_head (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v11) = Cert.ContactSpec.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run (Cert.ReferenceIdeal.defs (F := Ideal)) _ _).mono
    (fun _ h c => ⟨(h c).1.trans ((Cert.ReferenceIdeal.Read.val_main_v11_eq _ _ _ _ _).trans
      (Cert.ReferenceIdeal.RefValue.result_eq _ _ _ _ _)), (h c).2⟩)
    (Cert.ReferenceIdeal.Value.run (F := Ideal) m ρ)

open Idealize.ShloMosaic Idealize.ShloMosaic.TcCoe Idealize.SL.Sem Cert.ReferenceIdeal in
/-- The frame alone: the reference's run leaves its five arguments as they stood at the launch. -/
theorem Cert.ReferenceIdeal.RefValue.run_frame (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run (Cert.ReferenceIdeal.defs (F := Ideal)) _ _).mono (fun _ h c => (h c).2)
    (Cert.ReferenceIdeal.RefValue.run_head m ρ)

end
-- ==== Proof.lean ====
/-
  The contact-map head: a two-kernel program against its reference.

  Both programs compute, over the extended reals, the same function of the five argument arrays:
      h[b,s,p]   = max (∑ d, x[b,s,d] · w[p,d] + bias[p]) 0
      out[b,i,j] = (∑ p, h[b,i,p] · h[b,j,p]) · cw[0,0] + cb[0]
  (Proof/Spec.lean). The kernel program computes h in one kernel over a 4 × 4 grid of [512, 256] blocks and out in a second
  kernel over a 4 × 4 grid of [512, 2048] blocks, each block by one matrix product of whole loaded blocks; the reference by
  two contractions over whole arrays. Each entry of each result is the same sum of the same products in both, so the two
  agree entry by entry with no law of arithmetic beyond the definitions, and the precondition is not used.
  The three programs run to their end without a fault and leave their arguments as launched: for the kernel program
  because each kernel region only reads its input windows' arrays and writes its own output array, and the host steps
  in between write only their own results; for the reference because it is a sequence of host steps.
  No operation was rewritten when the kernel program was idealized, so that claim is empty.
-/
import proofs.«177731_j83846351553194_2_alg».proof.Defs
import proofs.«177731_j83846351553194_2_alg».proof.Proof.Gen.Kernel
import proofs.«177731_j83846351553194_2_alg».proof.Proof.Gen.KernelIdeal
import proofs.«177731_j83846351553194_2_alg».proof.Proof.Gen.ReferenceIdeal
import proofs.«177731_j83846351553194_2_alg».proof.Proof.Gen.Pre_finite_inputs
import proofs.«177731_j83846351553194_2_alg».proof.Proof.K.Ends
import proofs.«177731_j83846351553194_2_alg».proof.Proof.KI.Result
import proofs.«177731_j83846351553194_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- So does the reference. -/
theorem frame_ri : Cert.frame_ReferenceIdeal := fun m ρ _ => Cert.ReferenceIdeal.RefValue.run_frame m ρ

/-- The idealization rewrote nothing. -/
theorem preserves : Cert.preserves_Kernel_KernelIdeal := trivial

/-- From memories agreeing on the five arguments, both idealized programs end with the specification's head of those
    arguments in their result buffers. -/
theorem algebraic : Cert.algebraic_KernelIdeal_ReferenceIdeal := by
  intro m ρ m' ρ' _ hagree
  refine ⟨_, Cert.KernelIdeal.Res.run_head m ρ, ?_⟩
  refine (θ_run Cert.ReferenceIdeal.defs _ _).mono (fun r h c => ⟨(h c).1.trans ?_, (h c).2⟩)
    (Cert.ReferenceIdeal.RefValue.run_head m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
